-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8 : Shape := ⟨1, ![8]⟩
abbrev S14541x1000 : Shape := ⟨2, ![14541, 1000]⟩
abbrev S237x500 : Shape := ⟨2, ![237, 500]⟩
abbrev S14541 : Shape := ⟨1, ![14541]⟩
abbrev S_ : Shape := ⟨0, ![]⟩

class Facts : Prop where
  bcast_S_S14541x1000 : S_.BroadcastsInDim S14541x1000 (![] : Fin 0 → Fin S14541x1000.rank)
  reducesTo_S14541x1000_S_d0_1 : S14541x1000.ReducesTo [0, 1] S_
  h_S_ : 0 < S_.numel
  bcast_S_S237x500 : S_.BroadcastsInDim S237x500 (![] : Fin 0 → Fin S237x500.rank)
  reducesTo_S237x500_S_d0_1 : S237x500.ReducesTo [0, 1] S_
  bcast_S_S14541 : S_.BroadcastsInDim S14541 (![] : Fin 0 → Fin S14541.rank)
  reducesTo_S14541_S_d0 : S14541.ReducesTo [0] S_

variable [Facts]

def fn {F : FTy → Type} [FloatOps F] (main_arg0 : IVec S8 32) (main_arg1 : IVec S8 32) (main_arg2 : FVec F S14541x1000 .f32) (main_arg3 : FVec F S237x500 .f32) (main_arg4 : FVec F S14541 .f32) : IVec S_ 1 :=
  let main_v0 : FVec F S14541x1000 .f32 := Host.absf main_arg2
  let main_cst : FVec F S_ .f32 := constant S_ .f32 0x7F800000#32
  let main_v1 : FVec F S14541x1000 .f32 := broadcastInDim S14541x1000 ![] bcast_S_S14541x1000 main_cst
  let main_v2 : IVec S14541x1000 1 := cmpf .olt main_v0 main_v1
  let main_c : IVec S_ 1 := constantI S_ 1 1#1
  let main_v3 : IVec S_ 1 := (fun x v => Host.reduce IntOp.andi x v reducesTo_S14541x1000_S_d0_1 h_S_) main_v2 main_c
  let main_v4 : FVec F S237x500 .f32 := Host.absf main_arg3
  let main_cst_0 : FVec F S_ .f32 := constant S_ .f32 0x7F800000#32
  let main_v5 : FVec F S237x500 .f32 := broadcastInDim S237x500 ![] bcast_S_S237x500 main_cst_0
  let main_v6 : IVec S237x500 1 := cmpf .olt main_v4 main_v5
  let main_c_1 : IVec S_ 1 := constantI S_ 1 1#1
  let main_v7 : IVec S_ 1 := (fun x v => Host.reduce IntOp.andi x v reducesTo_S237x500_S_d0_1 h_S_) main_v6 main_c_1
  let main_v8 : IVec S_ 1 := andi main_v3 main_v7
  let main_v9 : FVec F S14541 .f32 := Host.absf main_arg4
  let main_cst_2 : FVec F S_ .f32 := constant S_ .f32 0x7F800000#32
  let main_v10 : FVec F S14541 .f32 := broadcastInDim S14541 ![] bcast_S_S14541 main_cst_2
  let main_v11 : IVec S14541 1 := cmpf .olt main_v9 main_v10
  let main_c_3 : IVec S_ 1 := constantI S_ 1 1#1
  let main_v12 : IVec S_ 1 := (fun x v => Host.reduce IntOp.andi x v reducesTo_S14541_S_d0 h_S_) main_v11 main_c_3
  let main_v13 : IVec S_ 1 := andi main_v8 main_v12
  main_v13
-- ==== Kernel.lean ====
abbrev S8 : Shape := ⟨1, ![8]⟩
abbrev S14541x1000 : Shape := ⟨2, ![14541, 1000]⟩
abbrev S237x500 : Shape := ⟨2, ![237, 500]⟩
abbrev S14541 : Shape := ⟨1, ![14541]⟩
abbrev S_ : Shape := ⟨0, ![]⟩
abbrev S8x1 : Shape := ⟨2, ![8, 1]⟩
abbrev S8x1000 : Shape := ⟨2, ![8, 1000]⟩
abbrev S8x500 : Shape := ⟨2, ![8, 500]⟩
abbrev S14541x500 : Shape := ⟨2, ![14541, 500]⟩
abbrev S1x14541 : Shape := ⟨2, ![1, 14541]⟩
abbrev S8x14541 : Shape := ⟨2, ![8, 14541]⟩
abbrev S1024x500 : Shape := ⟨2, ![1024, 500]⟩
abbrev S1x1024 : Shape := ⟨2, ![1, 1024]⟩
abbrev S8x1024 : Shape := ⟨2, ![8, 1024]⟩
abbrev S1024 : Shape := ⟨1, ![1024]⟩
abbrev S1x500 : Shape := ⟨2, ![1, 500]⟩
abbrev S500 : Shape := ⟨1, ![500]⟩

abbrev nBuf : Space → Nat
  | .hbm => 40
  | .vmem => 10
  | .smem => 0
  | _ => 0

abbrev bufTy : (tb : Table) → Fin (tcTables nBuf tb) → BufTy
  | .hbm, ⟨0, _⟩ => ⟨S8, .i32⟩
  | .hbm, ⟨1, _⟩ => ⟨S8, .i32⟩
  | .hbm, ⟨2, _⟩ => ⟨S14541x1000, .f32⟩
  | .hbm, ⟨3, _⟩ => ⟨S237x500, .f32⟩
  | .hbm, ⟨4, _⟩ => ⟨S14541, .f32⟩
  | .hbm, ⟨5, _⟩ => ⟨S_, .i32⟩
  | .hbm, ⟨6, _⟩ => ⟨S8, .i32⟩
  | .hbm, ⟨7, _⟩ => ⟨S8, .i1⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .i32⟩
  | .hbm, ⟨12, _⟩ => ⟨S8x1, .i32⟩
  | .hbm, ⟨13, _⟩ => ⟨S8x1000, .f32⟩
  | .hbm, ⟨14, _⟩ => ⟨S8x500, .f32⟩
  | .hbm, ⟨15, _⟩ => ⟨S8x500, .f32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S8, .i32⟩
  | .hbm, ⟨23, _⟩ => ⟨S8x1, .i32⟩
  | .hbm, ⟨24, _⟩ => ⟨S8x500, .f32⟩
  | .hbm, ⟨25, _⟩ => ⟨S_, .f32⟩
  | .hbm, ⟨26, _⟩ => ⟨S8x500, .f32⟩
  | .hbm, ⟨27, _⟩ => ⟨S8x500, .f32⟩
  | .hbm, ⟨28, _⟩ => ⟨S8x500, .f32⟩
  | .hbm, ⟨29, _⟩ => ⟨S8x500, .f32⟩
  | .hbm, ⟨30, _⟩ => ⟨S8x500, .f32⟩
  | .hbm, ⟨31, _⟩ => ⟨S8x500, .f32⟩
  | .hbm, ⟨32, _⟩ => ⟨S8x500, .f32⟩
  | .hbm, ⟨33, _⟩ => ⟨S8x500, .f32⟩
  | .hbm, ⟨34, _⟩ => ⟨S8x500, .f32⟩
  | .hbm, ⟨35, _⟩ => ⟨S8x500, .f32⟩
  | .hbm, ⟨36, _⟩ => ⟨S14541x500, .f32⟩
  | .hbm, ⟨37, _⟩ => ⟨S14541x500, .f32⟩
  | .hbm, ⟨38, _⟩ => ⟨S1x14541, .f32⟩
  | .hbm, ⟨39, _⟩ => ⟨S8x14541, .f32⟩
  | .local _ .vmem, ⟨0, _⟩ => ⟨S1024x500, .f32⟩
  | .local _ .vmem, ⟨1, _⟩ => ⟨S1024x500, .f32⟩
  | .local _ .vmem, ⟨2, _⟩ => ⟨S1024x500, .f32⟩
  | .local _ .vmem, ⟨3, _⟩ => ⟨S1024x500, .f32⟩
  | .local _ .vmem, ⟨4, _⟩ => ⟨S8x500, .f32⟩
  | .local _ .vmem, ⟨5, _⟩ => ⟨S8x500, .f32⟩
  | .local _ .vmem, ⟨6, _⟩ => ⟨S1x1024, .f32⟩
  | .local _ .vmem, ⟨7, _⟩ => ⟨S1x1024, .f32⟩
  | .local _ .vmem, ⟨8, _⟩ => ⟨S8x1024, .f32⟩
  | .local _ .vmem, ⟨9, _⟩ => ⟨S8x1024, .f32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x500 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S8 : S_.BroadcastsInDim S8 (![] : Fin 0 → Fin S8.rank)
  bcast_S8_S8x1_0 : S8.BroadcastsInDim S8x1 (![0] : Fin 1 → Fin S8x1.rank)
  slices_S8x1000_S8x500_0_0 : S8x1000.Slices ![0, 0] S8x500
  slices_S8x1000_S8x500_0_500 : S8x1000.Slices ![0, 500] S8x500
  bcast_S_S8x500 : S_.BroadcastsInDim S8x500 (![] : Fin 0 → Fin S8x500.rank)
  slices_S14541x1000_S14541x500_0_0 : S14541x1000.Slices ![0, 0] S14541x500
  slices_S14541x1000_S14541x500_0_500 : S14541x1000.Slices ![0, 500] S14541x500
  shapeCasts_S14541_S1x14541 : S14541.ShapeCasts S1x14541
  inb_S1024x500_S1024x500_0_0 : ∀ a, (![0, 0] : Fin 2 → Nat) a + S1024x500.size a ≤ S1024x500.size a
  h_S1024x500 : 0 < S1024x500.numel
  shapeCasts_S1024x500_S1024x500 : S1024x500.ShapeCasts S1024x500
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  inb_S8x500_S1x500_0_0 : ∀ a, (![0, 0] : Fin 2 → Nat) a + S1x500.size a ≤ S8x500.size a
  h_S1x500 : 0 < S1x500.numel
  shapeCasts_S1x500_S500 : S1x500.ShapeCasts S500
  shapeCasts_S500_S1x500 : S500.ShapeCasts S1x500
  broadcasts_S1x500_S1024x500 : S1x500.Broadcasts S1024x500
  reduces_S1024x500_S1024 : S1024x500.Reduces [1] S1024
  inb_S8x1024_S1x1024_0_0 : ∀ a, (![0, 0] : Fin 2 → Nat) a + S1x1024.size a ≤ S8x1024.size a
  shapeCasts_S1024_S1x1024 : S1024.ShapeCasts S1x1024
  inb_S8x500_S1x500_1_0 : ∀ a, (![1, 0] : Fin 2 → Nat) a + S1x500.size a ≤ S8x500.size a
  inb_S8x1024_S1x1024_1_0 : ∀ a, (![1, 0] : Fin 2 → Nat) a + S1x1024.size a ≤ S8x1024.size a
  inb_S8x500_S1x500_2_0 : ∀ a, (![2, 0] : Fin 2 → Nat) a + S1x500.size a ≤ S8x500.size a
  inb_S8x1024_S1x1024_2_0 : ∀ a, (![2, 0] : Fin 2 → Nat) a + S1x1024.size a ≤ S8x1024.size a
  inb_S8x500_S1x500_3_0 : ∀ a, (![3, 0] : Fin 2 → Nat) a + S1x500.size a ≤ S8x500.size a
  inb_S8x1024_S1x1024_3_0 : ∀ a, (![3, 0] : Fin 2 → Nat) a + S1x1024.size a ≤ S8x1024.size a
  inb_S8x500_S1x500_4_0 : ∀ a, (![4, 0] : Fin 2 → Nat) a + S1x500.size a ≤ S8x500.size a
  inb_S8x1024_S1x1024_4_0 : ∀ a, (![4, 0] : Fin 2 → Nat) a + S1x1024.size a ≤ S8x1024.size a
  inb_S8x500_S1x500_5_0 : ∀ a, (![5, 0] : Fin 2 → Nat) a + S1x500.size a ≤ S8x500.size a
  inb_S8x1024_S1x1024_5_0 : ∀ a, (![5, 0] : Fin 2 → Nat) a + S1x1024.size a ≤ S8x1024.size a
  inb_S8x500_S1x500_6_0 : ∀ a, (![6, 0] : Fin 2 → Nat) a + S1x500.size a ≤ S8x500.size a
  inb_S8x1024_S1x1024_6_0 : ∀ a, (![6, 0] : Fin 2 → Nat) a + S1x1024.size a ≤ S8x1024.size a
  inb_S8x500_S1x500_7_0 : ∀ a, (![7, 0] : Fin 2 → Nat) a + S1x500.size a ≤ S8x500.size a
  inb_S8x1024_S1x1024_7_0 : ∀ a, (![7, 0] : Fin 2 → Nat) a + S1x1024.size a ≤ S8x1024.size a
  gather_S14541x1000_S8x1_S8x1000_1_0_n_n_0_1_11000_wf : GatherDims.WF S14541x1000 S8x1 S8x1000 [1] [0] [] [0] [] 1 ![1, 1000]
  gather_S237x500_S8x1_S8x500_1_0_n_n_0_1_1500_wf : GatherDims.WF S237x500 S8x1 S8x500 [1] [0] [] [0] [] 1 ![1, 500]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x500.size a < S14541x500.size a
  hwx0_0 : ∀ i : grid0.Coords, EltTy.bits .f32 = 32 ∨ (Rect.unit (s := S14541x500) (fun a => cc0_transform_0 i a * S1024x500.size a) (fun a => (Pipeline.Clip.of (cc0_transform_0 i a) (S1024x500.size a) (S14541x500.size a)).extent (S1024x500.size a)) fun a => Pipeline.Clip.inb (Pipeline.Clip.ok_of (hstart0_0 i a))).WholeWords (EltTy.packing .f32)
  hwxs0_0 : ∀ i : grid0.Coords, EltTy.bits .f32 = 32 ∨ (Rect.unit (s := S1024x500) (fun _ => 0) (fun a => (Pipeline.Clip.of (cc0_transform_0 i a) (S1024x500.size a) (S14541x500.size a)).extent (S1024x500.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x500.size a < S14541x500.size a
  hwx0_1 : ∀ i : grid0.Coords, EltTy.bits .f32 = 32 ∨ (Rect.unit (s := S14541x500) (fun a => cc0_transform_1 i a * S1024x500.size a) (fun a => (Pipeline.Clip.of (cc0_transform_1 i a) (S1024x500.size a) (S14541x500.size a)).extent (S1024x500.size a)) fun a => Pipeline.Clip.inb (Pipeline.Clip.ok_of (hstart0_1 i a))).WholeWords (EltTy.packing .f32)
  hwxs0_1 : ∀ i : grid0.Coords, EltTy.bits .f32 = 32 ∨ (Rect.unit (s := S1024x500) (fun _ => 0) (fun a => (Pipeline.Clip.of (cc0_transform_1 i a) (S1024x500.size a) (S14541x500.size a)).extent (S1024x500.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x500.size a ≤ S8x500.size a
  hwx0_2 : ∀ i : grid0.Coords, EltTy.bits .f32 = 32 ∨ (Rect.block (s := S8x500) S8x500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x500.size a ≤ S8x500.size a
  hwx0_3 : ∀ i : grid0.Coords, EltTy.bits .f32 = 32 ∨ (Rect.block (s := S8x500) S8x500.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x1024.size a < S1x14541.size a
  hwx0_4 : ∀ i : grid0.Coords, EltTy.bits .f32 = 32 ∨ (Rect.unit (s := S1x14541) (fun a => cc0_transform_4 i a * S1x1024.size a) (fun a => (Pipeline.Clip.of (cc0_transform_4 i a) (S1x1024.size a) (S1x14541.size a)).extent (S1x1024.size a)) fun a => Pipeline.Clip.inb (Pipeline.Clip.ok_of (hstart0_4 i a))).WholeWords (EltTy.packing .f32)
  hwxs0_4 : ∀ i : grid0.Coords, EltTy.bits .f32 = 32 ∨ (Rect.unit (s := S1x1024) (fun _ => 0) (fun a => (Pipeline.Clip.of (cc0_transform_4 i a) (S1x1024.size a) (S1x14541.size a)).extent (S1x1024.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S8x1024.size a < S8x14541.size a
  hwx0_5 : ∀ i : grid0.Coords, EltTy.bits .f32 = 32 ∨ (Rect.unit (s := S8x14541) (fun a => cc0_transform_5 i a * S8x1024.size a) (fun a => (Pipeline.Clip.of (cc0_transform_5 i a) (S8x1024.size a) (S8x14541.size a)).extent (S8x1024.size a)) fun a => Pipeline.Clip.inb (Pipeline.Clip.ok_of (hstart0_5 i a))).WholeWords (EltTy.packing .f32)
  hwxs0_5 : ∀ i : grid0.Coords, EltTy.bits .f32 = 32 ∨ (Rect.unit (s := S8x1024) (fun _ => 0) (fun a => (Pipeline.Clip.of (cc0_transform_5 i a) (S8x1024.size a) (S8x14541.size a)).extent (S8x1024.size a)) fun a => (Nat.zero_add _).trans_le (Pipeline.Clip.extent_le (Pipeline.Clip.ok_of (hstart0_5 i a)))).WholeWords (EltTy.packing .f32)

variable [Facts₀]

def gather_S14541x1000_S8x1_S8x1000_1_0_n_n_0_1_11000 : GatherDims S14541x1000 S8x1 S8x1000 where
  offsetDims := [1]
  collapsedSliceDims := [0]
  operandBatchingDims := []
  startIndicesBatchingDims := []
  startIndexMap := [0]
  indexVectorDim := 1
  sliceSizes := ![1, 1000]
  wf := gather_S14541x1000_S8x1_S8x1000_1_0_n_n_0_1_11000_wf
def gather_S237x500_S8x1_S8x500_1_0_n_n_0_1_1500 : GatherDims S237x500 S8x1 S8x500 where
  offsetDims := [1]
  collapsedSliceDims := [0]
  operandBatchingDims := []
  startIndicesBatchingDims := []
  startIndexMap := [0]
  indexVectorDim := 1
  sliceSizes := ![1, 500]
  wf := gather_S237x500_S8x1_S8x500_1_0_n_n_0_1_1500_wf

abbrev win0_0 : Pipeline.Window sig grid0 :=
  Pipeline.Window.ofSpecClip (Memref.whole main_v26) S1024x500.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v27) S1024x500.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v22) S8x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S8x500.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v28) S1x1024.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v29) S8x1024.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8 : Shape := ⟨1, ![8]⟩
abbrev S14541x1000 : Shape := ⟨2, ![14541, 1000]⟩
abbrev S237x500 : Shape := ⟨2, ![237, 500]⟩
abbrev S14541 : Shape := ⟨1, ![14541]⟩
abbrev S_ : Shape := ⟨0, ![]⟩
abbrev S8x1 : Shape := ⟨2, ![8, 1]⟩
abbrev S8x1000 : Shape := ⟨2, ![8, 1000]⟩
abbrev S8x1x1000 : Shape := ⟨3, ![8, 1, 1000]⟩
abbrev S8x500 : Shape := ⟨2, ![8, 500]⟩
abbrev S8x1x500 : Shape := ⟨3, ![8, 1, 500]⟩
abbrev S1x14541x1000 : Shape := ⟨3, ![1, 14541, 1000]⟩
abbrev S1x14541x500 : Shape := ⟨3, ![1, 14541, 500]⟩
abbrev S8x14541x500 : Shape := ⟨3, ![8, 14541, 500]⟩
abbrev S8x14541 : Shape := ⟨2, ![8, 14541]⟩
abbrev S1x14541 : Shape := ⟨2, ![1, 14541]⟩

abbrev nBuf : Space → Nat
  | .hbm => 67
  | .vmem => 0
  | .smem => 0
  | _ => 0

abbrev bufTy : (tb : Table) → Fin (tcTables nBuf tb) → BufTy
  | .hbm, ⟨0, _⟩ => ⟨S8, .i32⟩
  | .hbm, ⟨1, _⟩ => ⟨S8, .i32⟩
  | .hbm, ⟨2, _⟩ => ⟨S14541x1000, .f32⟩
  | .hbm, ⟨3, _⟩ => ⟨S237x500, .f32⟩
  | .hbm, ⟨4, _⟩ => ⟨S14541, .f32⟩
  | .hbm, ⟨5, _⟩ => ⟨S_, .i32⟩
  | .hbm, ⟨6, _⟩ => ⟨S8, .i32⟩
  | .hbm, ⟨7, _⟩ => ⟨S8, .i1⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .i32⟩
  | .hbm, ⟨12, _⟩ => ⟨S8x1, .i32⟩
  | .hbm, ⟨13, _⟩ => ⟨S8x1000, .f32⟩
  | .hbm, ⟨14, _⟩ => ⟨S8x1x1000, .f32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S8x1, .i32⟩
  | .hbm, ⟨23, _⟩ => ⟨S8x500, .f32⟩
  | .hbm, ⟨24, _⟩ => ⟨S8x1x500, .f32⟩
  | .hbm, ⟨25, _⟩ => ⟨S8x1x500, .f32⟩
  | .hbm, ⟨26, _⟩ => ⟨S8x1x500, .f32⟩
  | .hbm, ⟨27, _⟩ => ⟨S1x14541x1000, .f32⟩
  | .hbm, ⟨28, _⟩ => ⟨S1x14541x500, .f32⟩
  | .hbm, ⟨29, _⟩ => ⟨S1x14541x500, .f32⟩
  | .hbm, ⟨30, _⟩ => ⟨S_, .f32⟩
  | .hbm, ⟨31, _⟩ => ⟨S8x1x500, .f32⟩
  | .hbm, ⟨32, _⟩ => ⟨S8x1x500, .f32⟩
  | .hbm, ⟨33, _⟩ => ⟨S8x1x500, .f32⟩
  | .hbm, ⟨34, _⟩ => ⟨S8x1x500, .f32⟩
  | .hbm, ⟨35, _⟩ => ⟨S8x1x500, .f32⟩
  | .hbm, ⟨36, _⟩ => ⟨S8x1x500, .f32⟩
  | .hbm, ⟨37, _⟩ => ⟨S8x1x500, .f32⟩
  | .hbm, ⟨38, _⟩ => ⟨S8x14541x500, .f32⟩
  | .hbm, ⟨39, _⟩ => ⟨S8x14541x500, .f32⟩
  | .hbm, ⟨40, _⟩ => ⟨S8x14541x500, .f32⟩
  | .hbm, ⟨41, _⟩ => ⟨S8x1x500, .f32⟩
  | .hbm, ⟨42, _⟩ => ⟨S8x1x500, .f32⟩
  | .hbm, ⟨43, _⟩ => ⟨S8x1x500, .f32⟩
  | .hbm, ⟨44, _⟩ => ⟨S8x14541x500, .f32⟩
  | .hbm, ⟨45, _⟩ => ⟨S8x14541x500, .f32⟩
  | .hbm, ⟨46, _⟩ => ⟨S8x14541x500, .f32⟩
  | .hbm, ⟨47, _⟩ => ⟨S8x14541x500, .f32⟩
  | .hbm, ⟨48, _⟩ => ⟨S8x14541x500, .f32⟩
  | .hbm, ⟨49, _⟩ => ⟨S8x14541x500, .f32⟩
  | .hbm, ⟨50, _⟩ => ⟨S8x14541x500, .f32⟩
  | .hbm, ⟨51, _⟩ => ⟨S_, .f32⟩
  | .hbm, ⟨52, _⟩ => ⟨S8x14541, .f32⟩
  | .hbm, ⟨53, _⟩ => ⟨S_, .f32⟩
  | .hbm, ⟨54, _⟩ => ⟨S8x14541, .f32⟩
  | .hbm, ⟨55, _⟩ => ⟨S8x14541, .f32⟩
  | .hbm, ⟨56, _⟩ => ⟨S1x14541, .f32⟩
  | .hbm, ⟨57, _⟩ => ⟨S8x14541, .f32⟩
  | .hbm, ⟨58, _⟩ => ⟨S8x14541, .f32⟩
  | .hbm, ⟨59, _⟩ => ⟨S8x14541, .f32⟩
  | .hbm, ⟨60, _⟩ => ⟨S8x14541, .f32⟩
  | .hbm, ⟨61, _⟩ => ⟨S_, .f32⟩
  | .hbm, ⟨62, _⟩ => ⟨S8x14541, .f32⟩
  | .hbm, ⟨63, _⟩ => ⟨S8x14541, .f32⟩
  | .hbm, ⟨64, _⟩ => ⟨S_, .f32⟩
  | .hbm, ⟨65, _⟩ => ⟨S8x14541, .f32⟩
  | .hbm, ⟨66, _⟩ => ⟨S8x14541, .f32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S8x1_0 : S8.BroadcastsInDim S8x1 (![0] : Fin 1 → Fin S8x1.rank)
  bcast_S8x1000_S8x1x1000_0_2 : S8x1000.BroadcastsInDim S8x1x1000 (![0, 2] : Fin 2 → Fin S8x1x1000.rank)
  bcast_S8x500_S8x1x500_0_2 : S8x500.BroadcastsInDim S8x1x500 (![0, 2] : Fin 2 → Fin S8x1x500.rank)
  slices_S8x1x1000_S8x1x500_0_0_0 : S8x1x1000.Slices ![0, 0, 0] S8x1x500
  slices_S8x1x1000_S8x1x500_0_0_500 : S8x1x1000.Slices ![0, 0, 500] S8x1x500
  bcast_S14541x1000_S1x14541x1000_1_2 : S14541x1000.BroadcastsInDim S1x14541x1000 (![1, 2] : Fin 2 → Fin S1x14541x1000.rank)
  slices_S1x14541x1000_S1x14541x500_0_0_0 : S1x14541x1000.Slices ![0, 0, 0] S1x14541x500
  slices_S1x14541x1000_S1x14541x500_0_0_500 : S1x14541x1000.Slices ![0, 0, 500] S1x14541x500
  bcast_S_S8x1x500 : S_.BroadcastsInDim S8x1x500 (![] : Fin 0 → Fin S8x1x500.rank)
  bcast_S8x1x500_S8x14541x500_0_1_2 : S8x1x500.BroadcastsInDim S8x14541x500 (![0, 1, 2] : Fin 3 → Fin S8x14541x500.rank)
  bcast_S1x14541x500_S8x14541x500_0_1_2 : S1x14541x500.BroadcastsInDim S8x14541x500 (![0, 1, 2] : Fin 3 → Fin S8x14541x500.rank)
  reducesTo_S8x14541x500_S8x14541_d2 : S8x14541x500.ReducesTo [2] S8x14541
  h_S_ : 0 < S_.numel
  bcast_S_S8x14541 : S_.BroadcastsInDim S8x14541 (![] : Fin 0 → Fin S8x14541.rank)
  bcast_S14541_S1x14541_1 : S14541.BroadcastsInDim S1x14541 (![1] : Fin 1 → Fin S1x14541.rank)
  bcast_S1x14541_S8x14541_0_1 : S1x14541.BroadcastsInDim S8x14541 (![0, 1] : Fin 2 → Fin S8x14541.rank)
  gather_S14541x1000_S8x1_S8x1000_1_0_n_n_0_1_11000_wf : GatherDims.WF S14541x1000 S8x1 S8x1000 [1] [0] [] [0] [] 1 ![1, 1000]
  gather_S237x500_S8x1_S8x500_1_0_n_n_0_1_1500_wf : GatherDims.WF S237x500 S8x1 S8x500 [1] [0] [] [0] [] 1 ![1, 500]

variable [Facts₀]

def gather_S14541x1000_S8x1_S8x1000_1_0_n_n_0_1_11000 : GatherDims S14541x1000 S8x1 S8x1000 where
  offsetDims := [1]
  collapsedSliceDims := [0]
  operandBatchingDims := []
  startIndicesBatchingDims := []
  startIndexMap := [0]
  indexVectorDim := 1
  sliceSizes := ![1, 1000]
  wf := gather_S14541x1000_S8x1_S8x1000_1_0_n_n_0_1_11000_wf
def gather_S237x500_S8x1_S8x500_1_0_n_n_0_1_1500 : GatherDims S237x500 S8x1 S8x500 where
  offsetDims := [1]
  collapsedSliceDims := [0]
  operandBatchingDims := []
  startIndicesBatchingDims := []
  startIndexMap := [0]
  indexVectorDim := 1
  sliceSizes := ![1, 500]
  wf := gather_S237x500_S8x1_S8x500_1_0_n_n_0_1_1500_wf

class Facts : Prop extends Facts₀ where

variable [Facts]
-- ==== Proof.WordTile.lean ====
/-
  What one grid step leaves in the output tile.

  A grid step holds six staging buffers: a [1024,500] tile of the tails' real parts, a [1024,500] tile of their
  imaginary parts, the two [8,500] rotated heads (real, imaginary), a [1,1024] tile of the bias, and the [8,1024]
  output tile. The body reads the first five and, for each of the eight batch rows in turn, stores one [1,1024] row of
  the output tile: the eight row stores tile the buffer, so what it holds afterwards is a function of what the five
  inputs read alone (`tileOut`: the stores as pieces, last first), whatever it held before. The inputs are left as
  they were. Stated for any float instance.
-/
import proofs.«144243_j71253507441336_2_alg».proof.Proof.Gen.Kernel.Frame
import proofs.«144243_j71253507441336_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- A whole [1024,500] tile of tails. -/
abbrev rTail : Rect S1024x500 := Rect.unit (s := S1024x500) ![0, 0] S1024x500.size inb_S1024x500_S1024x500_0_0
/-- The whole [1,1024] tile of the bias. -/
abbrev rBias : Rect S1x1024 := Rect.unit (s := S1x1024) ![0, 0] S1x1024.size inb_S1x1024_S1x1024_0_0
/-- Row 0 of a rotated head. -/
abbrev rHead0 : Rect S8x500 := Rect.unit (s := S8x500) ![0, 0] S1x500.size inb_S8x500_S1x500_0_0
/-- Row 0 of the output tile. -/
abbrev rOut0 : Rect S8x1024 := Rect.unit (s := S8x1024) ![0, 0] S1x1024.size inb_S8x1024_S1x1024_0_0
/-- Row 1 of a rotated head. -/
abbrev rHead1 : Rect S8x500 := Rect.unit (s := S8x500) ![1, 0] S1x500.size inb_S8x500_S1x500_1_0
/-- Row 1 of the output tile. -/
abbrev rOut1 : Rect S8x1024 := Rect.unit (s := S8x1024) ![1, 0] S1x1024.size inb_S8x1024_S1x1024_1_0
/-- Row 2 of a rotated head. -/
abbrev rHead2 : Rect S8x500 := Rect.unit (s := S8x500) ![2, 0] S1x500.size inb_S8x500_S1x500_2_0
/-- Row 2 of the output tile. -/
abbrev rOut2 : Rect S8x1024 := Rect.unit (s := S8x1024) ![2, 0] S1x1024.size inb_S8x1024_S1x1024_2_0
/-- Row 3 of a rotated head. -/
abbrev rHead3 : Rect S8x500 := Rect.unit (s := S8x500) ![3, 0] S1x500.size inb_S8x500_S1x500_3_0
/-- Row 3 of the output tile. -/
abbrev rOut3 : Rect S8x1024 := Rect.unit (s := S8x1024) ![3, 0] S1x1024.size inb_S8x1024_S1x1024_3_0
/-- Row 4 of a rotated head. -/
abbrev rHead4 : Rect S8x500 := Rect.unit (s := S8x500) ![4, 0] S1x500.size inb_S8x500_S1x500_4_0
/-- Row 4 of the output tile. -/
abbrev rOut4 : Rect S8x1024 := Rect.unit (s := S8x1024) ![4, 0] S1x1024.size inb_S8x1024_S1x1024_4_0
/-- Row 5 of a rotated head. -/
abbrev rHead5 : Rect S8x500 := Rect.unit (s := S8x500) ![5, 0] S1x500.size inb_S8x500_S1x500_5_0
/-- Row 5 of the output tile. -/
abbrev rOut5 : Rect S8x1024 := Rect.unit (s := S8x1024) ![5, 0] S1x1024.size inb_S8x1024_S1x1024_5_0
/-- Row 6 of a rotated head. -/
abbrev rHead6 : Rect S8x500 := Rect.unit (s := S8x500) ![6, 0] S1x500.size inb_S8x500_S1x500_6_0
/-- Row 6 of the output tile. -/
abbrev rOut6 : Rect S8x1024 := Rect.unit (s := S8x1024) ![6, 0] S1x1024.size inb_S8x1024_S1x1024_6_0
/-- Row 7 of a rotated head. -/
abbrev rHead7 : Rect S8x500 := Rect.unit (s := S8x500) ![7, 0] S1x500.size inb_S8x500_S1x500_7_0
/-- Row 7 of the output tile. -/
abbrev rOut7 : Rect S8x1024 := Rect.unit (s := S8x1024) ![7, 0] S1x1024.size inb_S8x1024_S1x1024_7_0

/-! ## What the output tile holds after the body -/

/-- The output tile after the body, from what the five input buffers read: the eight row stores as pieces, last
    first; row `b`'s payload is the body's arithmetic on the two tail tiles, row `b` of the two heads and the bias. -/
def tileOut (x0 x1 : Vec F S1024x500 .f32) (x2 x3 : Vec F S8x500 .f32) (x4 : Vec F S1x1024 .f32) : Vec F S8x1024 .f32 :=
  View.canon [
    ⟨rOut7, k0_pay1 (k0_pay2 (View.ld x0 rTail)) (k0_pay3 (View.ld x1 rTail)) (k0_pay4 (View.ld x4 rBias)) (k0_pay18 (View.ld x3 rHead7)) (k0_pay19 (View.ld x2 rHead7))⟩,
    ⟨rOut6, k0_pay17 (k0_pay2 (View.ld x0 rTail)) (k0_pay3 (View.ld x1 rTail)) (k0_pay4 (View.ld x4 rBias)) (View.ld x2 rHead6) (View.ld x3 rHead6)⟩,
    ⟨rOut5, k0_pay16 (k0_pay3 (View.ld x1 rTail)) (k0_pay4 (View.ld x4 rBias)) (k0_pay14 (k0_pay2 (View.ld x0 rTail)) (View.ld x2 rHead5)) (k0_pay15 (View.ld x3 rHead5))⟩,
    ⟨rOut4, k0_pay13 (k0_pay2 (View.ld x0 rTail)) (k0_pay3 (View.ld x1 rTail)) (k0_pay4 (View.ld x4 rBias)) (View.ld x2 rHead4) (View.ld x3 rHead4)⟩,
    ⟨rOut3, k0_pay12 (k0_pay4 (View.ld x4 rBias)) (k0_pay10 (k0_pay2 (View.ld x0 rTail)) (View.ld x2 rHead3)) (k0_pay11 (k0_pay3 (View.ld x1 rTail)) (View.ld x3 rHead3))⟩,
    ⟨rOut2, k0_pay9 (k0_pay2 (View.ld x0 rTail)) (k0_pay3 (View.ld x1 rTail)) (k0_pay4 (View.ld x4 rBias)) (View.ld x2 rHead2) (View.ld x3 rHead2)⟩,
    ⟨rOut1, k0_pay8 (k0_pay4 (View.ld x4 rBias)) (k0_pay6 (View.ld x0 rTail) (View.ld x2 rHead1)) (k0_pay7 (View.ld x1 rTail) (View.ld x3 rHead1))⟩,
    ⟨rOut0, k0_pay5 (View.ld x0 rTail) (View.ld x1 rTail) (View.ld x4 rBias) (View.ld x2 rHead0) (View.ld x3 rHead0)⟩]

/-- The eight rows tile the [8,1024] buffer, so the stores cover it. -/
theorem tileOut_cover (p7 p6 p5 p4 p3 p2 p1 p0 : Vec F S1x1024 .f32) (y : S8x1024.Idx) :
    ∃ pc ∈ ([⟨rOut7, p7⟩, ⟨rOut6, p6⟩, ⟨rOut5, p5⟩, ⟨rOut4, p4⟩, ⟨rOut3, p3⟩, ⟨rOut2, p2⟩, ⟨rOut1, p1⟩, ⟨rOut0, p0⟩] : List (View.Piece (Elt F) S8x1024 .f32)), y ∈ pc.1.set :=
  View.cover_of_tiled [⟨rOut7, p7⟩, ⟨rOut6, p6⟩, ⟨rOut5, p5⟩, ⟨rOut4, p4⟩, ⟨rOut3, p3⟩, ⟨rOut2, p2⟩, ⟨rOut1, p1⟩, ⟨rOut0, p0⟩] S1x1024.size (by rfl) y

/-! ## The body's triple -/

set_option maxHeartbeats 4000000 in
/-- The kernel body on whole staging memrefs, the five inputs' at read contents `x0 … x4` and the output's at anything,
    runs to the continuation holding the inputs' as they were and the output's at `tileOut` of the inputs'. -/
theorem body_triple (c : Dev nD) (E : Set ℕ) (i : grid0.Coords)
    (arg1 : Memref sig .tc .vmem S1024x500 .f32) (harg1 : arg1.IsWhole) (arg2 : Memref sig .tc .vmem S1024x500 .f32) (harg2 : arg2.IsWhole)
    (arg3 : Memref sig .tc .vmem S8x500 .f32) (harg3 : arg3.IsWhole) (arg4 : Memref sig .tc .vmem S8x500 .f32) (harg4 : arg4.IsWhole)
    (arg5 : Memref sig .tc .vmem S1x1024 .f32) (harg5 : arg5.IsWhole) (arg6 : Memref sig .tc .vmem S8x1024 .f32) (harg6 : arg6.IsWhole)
    (x0 x1 : Vec F S1024x500 .f32) (x2 x3 : Vec F S8x500 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (tileOut x0 x1 x2 x3 x4)) -∗ K ⟨⟩))
      ⊢ wp frame (wpE (defs₀ (F := F)) Variants.none c none) E (cc0__rotate_kernel i arg1 harg1 arg2 harg2 arg3 harg3 arg4 harg4 arg5 harg5 arg6 harg6) K := by
  simp only [cc0__rotate_kernel_eq_skeleton]; unfold cc0__rotate_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (tileOut_cover _ _ _ _ _ _ _ _)

end Cert.Kernel.Tile

end
-- ==== Proof.WordRun.lean ====
/-
  The word-level kernel runs to the end and leaves its argument arrays as they were.

  The grid has fifteen steps over 14541 entities in tiles of 1024: the last tile of the two tail arrays, of the bias
  and of the output overhangs its array by 819 entities, so its fetch fills only the first 205 rows (columns) of the
  staging buffer and nothing names the rest. The proof data therefore states each of those buffers on the part inside
  the array only: after a step a tail or bias buffer holds its block there (what the fetch put), the two rotated heads
  hold their whole [8,500] blocks (fetched once, kept), and nothing is said of the output tile at all, since this claim
  reads nothing of it. The body's triple (`Tile.body_triple`) gives each step; the launch is the library's.
-/
import proofs.«144243_j71253507441336_2_alg».proof.Proof.WordTile
import Idealize.ShloMosaic.Lib.Pipeline.Kit

set_option maxRecDepth 16384

noncomputable section

namespace Cert.Kernel.Run

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word a buffer's unnamed part is filled out with in the proof data (nothing reads it). -/
abbrev pad : Elt F .f32 := Scalar.ofBits .f32 0#32

/-- The proof data of the one pipeline on core `c`: the arrays as the region finds them; after the body at step `t`
    each clipped input's buffer at its block inside the array (padded), each rotated head's at its block; the output's
    forgotten (the padding word stands in); the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => pad) (iblk m c 0 t)
    | ⟨1, _⟩ => win0_1.fill (grid0.coords t) (fun _ => pad) (iblk m c 1 t)
    | ⟨2, _⟩ => iblk m c 2 t
    | ⟨3, _⟩ => iblk m c 3 t
    | ⟨4, _⟩ => win0_4.fill (grid0.coords t) (fun _ => pad) (iblk m c 4 t)
    | ⟨5, _⟩ => fun _ => pad
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = win0_0.fill (grid0.coords t) (fun _ => pad) (iblk m c 0 t) := by dsimp only [dats]
theorem after_1 (c : Dev nD) (t : Fin cfg0.N) : (dats m 0 c).after 1 t = win0_1.fill (grid0.coords t) (fun _ => pad) (iblk m c 1 t) := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = win0_4.fill (grid0.coords t) (fun _ => pad) (iblk m c 4 t) := by dsimp only [dats]

/-- A clipped input is fetched at every step: its buffer holds the block on the part inside the array, `d` elsewhere. -/
theorem before_0 (c : Dev nD) (t : Fin cfg0.N) (d) : (dats m 0 c).before 0 t d = win0_0.fill (grid0.coords t) d (iblk m c 0 t) := by
  unfold Dat.before; rw [if_pos (fetch0_0 t)]; rfl
theorem before_1 (c : Dev nD) (t : Fin cfg0.N) (d) : (dats m 0 c).before 1 t d = win0_1.fill (grid0.coords t) d (iblk m c 1 t) := by
  unfold Dat.before; rw [if_pos (fetch0_1 t)]; rfl
theorem before_4 (c : Dev nD) (t : Fin cfg0.N) (d) : (dats m 0 c).before 4 t d = win0_4.fill (grid0.coords t) d (iblk m c 4 t) := by
  unfold Dat.before; rw [if_pos (fetch0_4 t)]; rfl
/-- A rotated head is fetched at the first step and found in place at every later one. -/
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The output tile is the one window whose contents this proof data forgets. -/
def outOnly : Fin cfg0.W → Bool := fun | 0 => false | 1 => false | 2 => false | 3 => false | 4 => false | 5 => true | ⟨_ + 6, h⟩ => absurd h (Nat.not_lt.2 (Nat.le_add_left _ _))

/-- The body at step `t` on what the pipeline hands it: the inputs' buffers as `before_*` say, the output's at anything;
    it hands back the inputs' on the part inside the array as the proof data's `after` has them, and the output's at
    something. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ X, owns (c : Thread nD τ) (st0_5 t) fullShare X))
    ⊢ wp frame (wpE (defs₀ (F := F)) Variants.none c none) Set.univ (bodyAt0 t) (fun _ =>
      iprop((dats m 0 c).Φ t.succ ∗ (dats m 0 c).owesAt () t.succ
        ∗ (∃ d, owns (c : Thread nD τ) (st0_0 t) fullShare (win0_0.fill (grid0.coords t) d (win0_0.cut (grid0.coords t) ((dats m 0 c).after 0 t))))
        ∗ (∃ d, owns (c : Thread nD τ) (st0_1 t) fullShare (win0_1.fill (grid0.coords t) d (win0_1.cut (grid0.coords t) ((dats m 0 c).after 1 t))))
        ∗ owns (c : Thread nD τ) (st0_2 t) fullShare ((dats m 0 c).after 2 t)
        ∗ owns (c : Thread nD τ) (st0_3 t) fullShare ((dats m 0 c).after 3 t)
        ∗ (∃ d, owns (c : Thread nD τ) (st0_4 t) fullShare (win0_4.fill (grid0.coords t) d (win0_4.cut (grid0.coords t) ((dats m 0 c).after 4 t))))
        ∗ (∃ X, owns (c : Thread nD τ) (st0_5 t) fullShare X))) := by
  unfold bodyAt0
  rw [show (dats m 0 c).Φ t.succ = (dats m 0 c).Φ t.castSucc from rfl,
    show (dats m 0 c).owesAt () t.succ = (dats m 0 c).owesAt () t.castSucc from rfl,
    after_0, after_1, after_2, after_3, after_4]
  simp only [Window.cut_fill]
  iintro ⟨HΦ, Ho, ⟨%d0, H0⟩, ⟨%d1, H1⟩, ⟨%d2, H2⟩, ⟨%d3, H3⟩, ⟨%d4, H4⟩, ⟨%X5, H5⟩⟩
  rw [before_0 m c t d0, before_1 m c t d1, before_2 m c t d2, before_3 m c t d3, before_4 m c t d4]
  iapply (body_triple (F := F) c Set.univ _ _ _ _ _ _ _ _ _ _ _ _ _
    (win0_0.fill (grid0.coords t) d0 (iblk m c 0 t)) (win0_1.fill (grid0.coords t) d1 (iblk m c 1 t))
    (iblk m c 2 t) (iblk m c 3 t) (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists X5; iexact H5
  iintro ⟨H0, H1, H2, H3, H4, H5⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  isplitl [H4]; · iexists d4; iexact H4
  iexists _; iexact H5

/-- The library's body obligation at every step, the output tile forgotten. -/
theorem body_obligation (c : Dev nD) : BodyObligationLoose (dats (F := F) m 0 c) (defs₀ (F := F)) Variants.none () Set.univ outOnly := fun t => by
  rw [bigSep_W0, bigSep_W0]
  exact sound_body m c t

/-! ## The run and the frame -/

set_option backward.isDefEq.respectTransparency.types false in
/-- Every weakly fair execution of @main terminates, nothing faulting, and every unscoped buffer that is no window's
    array — the five argument arrays among them — ends as the region found it. -/
theorem run_main : θ_run defs (onTc (τ := τ) (main (F := F))) (s₀ m ρ)
    (Pipeline.RDat.FramePost cfg0 (fun c => (dats m 0 c).toRForget outOnly) (V m)) :=
  Pipeline.RDat.θ_run_frame cfgs (0 : Fin 1) launch0 defs₀ Variants.none (fun c => (dats m 0 c).toRForget outOnly) m ρ main
    (hbody := fun c => (body_obligation m c).toRForget) (hshare := fun c => (dats m 0 c).share_full fun _ => rfl)
    (howed := fun _ _ => rfl) (V := V m) (hmain := hmain m Variants.none) (hA := A_eq m) (hΦ := fun _ _ => rfl)

/-- The frame: the argument arrays end as launched (no host operation before the region writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Kernel.Run

end
-- ==== Proof.IdealTile.lean ====
/-
  What one grid step leaves in the output tile.

  A grid step holds six staging buffers: a [1024,500] tile of the tails' real parts, a [1024,500] tile of their
  imaginary parts, the two [8,500] rotated heads (real, imaginary), a [1,1024] tile of the bias, and the [8,1024]
  output tile. The body reads the first five and, for each of the eight batch rows in turn, stores one [1,1024] row of
  the output tile: the eight row stores tile the buffer, so what it holds afterwards is a function of what the five
  inputs read alone (`tileOut`: the stores as pieces, last first), whatever it held before. The inputs are left as
  they were. Stated for any float instance.
-/
import proofs.«144243_j71253507441336_2_alg».proof.Proof.Gen.KernelIdeal.Frame
import proofs.«144243_j71253507441336_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- A whole [1024,500] tile of tails. -/
abbrev rTail : Rect S1024x500 := Rect.unit (s := S1024x500) ![0, 0] S1024x500.size inb_S1024x500_S1024x500_0_0
/-- The whole [1,1024] tile of the bias. -/
abbrev rBias : Rect S1x1024 := Rect.unit (s := S1x1024) ![0, 0] S1x1024.size inb_S1x1024_S1x1024_0_0
/-- Row 0 of a rotated head. -/
abbrev rHead0 : Rect S8x500 := Rect.unit (s := S8x500) ![0, 0] S1x500.size inb_S8x500_S1x500_0_0
/-- Row 0 of the output tile. -/
abbrev rOut0 : Rect S8x1024 := Rect.unit (s := S8x1024) ![0, 0] S1x1024.size inb_S8x1024_S1x1024_0_0
/-- Row 1 of a rotated head. -/
abbrev rHead1 : Rect S8x500 := Rect.unit (s := S8x500) ![1, 0] S1x500.size inb_S8x500_S1x500_1_0
/-- Row 1 of the output tile. -/
abbrev rOut1 : Rect S8x1024 := Rect.unit (s := S8x1024) ![1, 0] S1x1024.size inb_S8x1024_S1x1024_1_0
/-- Row 2 of a rotated head. -/
abbrev rHead2 : Rect S8x500 := Rect.unit (s := S8x500) ![2, 0] S1x500.size inb_S8x500_S1x500_2_0
/-- Row 2 of the output tile. -/
abbrev rOut2 : Rect S8x1024 := Rect.unit (s := S8x1024) ![2, 0] S1x1024.size inb_S8x1024_S1x1024_2_0
/-- Row 3 of a rotated head. -/
abbrev rHead3 : Rect S8x500 := Rect.unit (s := S8x500) ![3, 0] S1x500.size inb_S8x500_S1x500_3_0
/-- Row 3 of the output tile. -/
abbrev rOut3 : Rect S8x1024 := Rect.unit (s := S8x1024) ![3, 0] S1x1024.size inb_S8x1024_S1x1024_3_0
/-- Row 4 of a rotated head. -/
abbrev rHead4 : Rect S8x500 := Rect.unit (s := S8x500) ![4, 0] S1x500.size inb_S8x500_S1x500_4_0
/-- Row 4 of the output tile. -/
abbrev rOut4 : Rect S8x1024 := Rect.unit (s := S8x1024) ![4, 0] S1x1024.size inb_S8x1024_S1x1024_4_0
/-- Row 5 of a rotated head. -/
abbrev rHead5 : Rect S8x500 := Rect.unit (s := S8x500) ![5, 0] S1x500.size inb_S8x500_S1x500_5_0
/-- Row 5 of the output tile. -/
abbrev rOut5 : Rect S8x1024 := Rect.unit (s := S8x1024) ![5, 0] S1x1024.size inb_S8x1024_S1x1024_5_0
/-- Row 6 of a rotated head. -/
abbrev rHead6 : Rect S8x500 := Rect.unit (s := S8x500) ![6, 0] S1x500.size inb_S8x500_S1x500_6_0
/-- Row 6 of the output tile. -/
abbrev rOut6 : Rect S8x1024 := Rect.unit (s := S8x1024) ![6, 0] S1x1024.size inb_S8x1024_S1x1024_6_0
/-- Row 7 of a rotated head. -/
abbrev rHead7 : Rect S8x500 := Rect.unit (s := S8x500) ![7, 0] S1x500.size inb_S8x500_S1x500_7_0
/-- Row 7 of the output tile. -/
abbrev rOut7 : Rect S8x1024 := Rect.unit (s := S8x1024) ![7, 0] S1x1024.size inb_S8x1024_S1x1024_7_0

/-! ## What the output tile holds after the body -/

/-- The output tile after the body, from what the five input buffers read: the eight row stores as pieces, last
    first; row `b`'s payload is the body's arithmetic on the two tail tiles, row `b` of the two heads and the bias. -/
def tileOut (x0 x1 : Vec F S1024x500 .f32) (x2 x3 : Vec F S8x500 .f32) (x4 : Vec F S1x1024 .f32) : Vec F S8x1024 .f32 :=
  View.canon [
    ⟨rOut7, k0_pay1 (k0_pay2 (View.ld x0 rTail)) (k0_pay3 (View.ld x1 rTail)) (k0_pay4 (View.ld x4 rBias)) (k0_pay18 (View.ld x3 rHead7)) (k0_pay19 (View.ld x2 rHead7))⟩,
    ⟨rOut6, k0_pay17 (k0_pay2 (View.ld x0 rTail)) (k0_pay3 (View.ld x1 rTail)) (k0_pay4 (View.ld x4 rBias)) (View.ld x2 rHead6) (View.ld x3 rHead6)⟩,
    ⟨rOut5, k0_pay16 (k0_pay3 (View.ld x1 rTail)) (k0_pay4 (View.ld x4 rBias)) (k0_pay14 (k0_pay2 (View.ld x0 rTail)) (View.ld x2 rHead5)) (k0_pay15 (View.ld x3 rHead5))⟩,
    ⟨rOut4, k0_pay13 (k0_pay2 (View.ld x0 rTail)) (k0_pay3 (View.ld x1 rTail)) (k0_pay4 (View.ld x4 rBias)) (View.ld x2 rHead4) (View.ld x3 rHead4)⟩,
    ⟨rOut3, k0_pay12 (k0_pay4 (View.ld x4 rBias)) (k0_pay10 (k0_pay2 (View.ld x0 rTail)) (View.ld x2 rHead3)) (k0_pay11 (k0_pay3 (View.ld x1 rTail)) (View.ld x3 rHead3))⟩,
    ⟨rOut2, k0_pay9 (k0_pay2 (View.ld x0 rTail)) (k0_pay3 (View.ld x1 rTail)) (k0_pay4 (View.ld x4 rBias)) (View.ld x2 rHead2) (View.ld x3 rHead2)⟩,
    ⟨rOut1, k0_pay8 (k0_pay4 (View.ld x4 rBias)) (k0_pay6 (View.ld x0 rTail) (View.ld x2 rHead1)) (k0_pay7 (View.ld x1 rTail) (View.ld x3 rHead1))⟩,
    ⟨rOut0, k0_pay5 (View.ld x0 rTail) (View.ld x1 rTail) (View.ld x4 rBias) (View.ld x2 rHead0) (View.ld x3 rHead0)⟩]

/-- The eight rows tile the [8,1024] buffer, so the stores cover it. -/
theorem tileOut_cover (p7 p6 p5 p4 p3 p2 p1 p0 : Vec F S1x1024 .f32) (y : S8x1024.Idx) :
    ∃ pc ∈ ([⟨rOut7, p7⟩, ⟨rOut6, p6⟩, ⟨rOut5, p5⟩, ⟨rOut4, p4⟩, ⟨rOut3, p3⟩, ⟨rOut2, p2⟩, ⟨rOut1, p1⟩, ⟨rOut0, p0⟩] : List (View.Piece (Elt F) S8x1024 .f32)), y ∈ pc.1.set :=
  View.cover_of_tiled [⟨rOut7, p7⟩, ⟨rOut6, p6⟩, ⟨rOut5, p5⟩, ⟨rOut4, p4⟩, ⟨rOut3, p3⟩, ⟨rOut2, p2⟩, ⟨rOut1, p1⟩, ⟨rOut0, p0⟩] S1x1024.size (by rfl) y

/-! ## The body's triple -/

set_option maxHeartbeats 4000000 in
/-- The kernel body on whole staging memrefs, the five inputs' at read contents `x0 … x4` and the output's at anything,
    runs to the continuation holding the inputs' as they were and the output's at `tileOut` of the inputs'. -/
theorem body_triple (c : Dev nD) (E : Set ℕ) (i : grid0.Coords)
    (arg1 : Memref sig .tc .vmem S1024x500 .f32) (harg1 : arg1.IsWhole) (arg2 : Memref sig .tc .vmem S1024x500 .f32) (harg2 : arg2.IsWhole)
    (arg3 : Memref sig .tc .vmem S8x500 .f32) (harg3 : arg3.IsWhole) (arg4 : Memref sig .tc .vmem S8x500 .f32) (harg4 : arg4.IsWhole)
    (arg5 : Memref sig .tc .vmem S1x1024 .f32) (harg5 : arg5.IsWhole) (arg6 : Memref sig .tc .vmem S8x1024 .f32) (harg6 : arg6.IsWhole)
    (x0 x1 : Vec F S1024x500 .f32) (x2 x3 : Vec F S8x500 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (tileOut x0 x1 x2 x3 x4)) -∗ K ⟨⟩))
      ⊢ wp frame (wpE (defs₀ (F := F)) Variants.none c none) E (cc0__rotate_kernel i arg1 harg1 arg2 harg2 arg3 harg3 arg4 harg4 arg5 harg5 arg6 harg6) K := by
  simp only [cc0__rotate_kernel_eq_skeleton]; unfold cc0__rotate_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (tileOut_cover _ _ _ _ _ _ _ _)

end Cert.KernelIdeal.Tile

end
-- ==== Proof.ScoreSpec.lean ====
/-
  The score this certificate is about, as one formula on the extended reals.

  For a batch row `b` and an entity `q`, with the rotated head (`hRe`, `hIm`: one complex number per batch row and
  coordinate), the tails (`tRe`, `tIm`: one complex number per entity and coordinate) and a bias per entity:

      score b q = logistic ((12 - Σ_k |head b k - tail q k|) + bias q),     k over the 500 coordinates,

  where |x + iy| = sqrt (x·x + y·y), and 12 is the f32 word 0x41400000. The same formula is read once over a tile of
  1024 entities (what one grid step computes) and once over all 14541 (what the whole program computes), so the number
  of entities is a parameter. Nothing here mentions a program.
-/
import Idealize.ShloMosaic.PureOps.Ideal
import Idealize.ShloMosaic.Lib.ValueIdx

noncomputable section

open scoped BigOperators

namespace Cert.ScoreSpec

open Idealize.ShloMosaic Idealize.ShloMosaic.ValueIdx

/-- The modulus of the complex difference (a + ic) - (b + id). -/
def modulus (a b c d : EReal) : EReal := Ideal.sqrt ((a - b) * (a - b) + (c - d) * (c - d))

/-- The score of one batch row — its rotated head the 500 complex numbers `hRe k + i·hIm k` — against entity `q` of `n`. -/
def rowScore {n : ℕ} (tRe tIm : (⟨2, ![n, 500]⟩ : Shape).Idx → EReal) (hRe hIm : Fin 500 → EReal)
    (bias : (⟨2, ![1, n]⟩ : Shape).Idx → EReal) (q : Fin n) : EReal :=
  Ideal.logistic ((Ideal.ofBits .f32 0x41400000#32
      - ∑ k : Fin 500, modulus (hRe k) (tRe (ix2 q k)) (hIm k) (tIm (ix2 q k)))
    + bias (ix2 (0 : Fin 1) q))

/-- The score of batch row `b` against entity `q` of `n` entities, the rotated heads an [8,500] array each. -/
def score {n : ℕ} (tRe tIm : (⟨2, ![n, 500]⟩ : Shape).Idx → EReal) (hRe hIm : (⟨2, ![8, 500]⟩ : Shape).Idx → EReal)
    (bias : (⟨2, ![1, n]⟩ : Shape).Idx → EReal) (b : Fin 8) (q : Fin n) : EReal :=
  rowScore tRe tIm (fun k => hRe (ix2 b k)) (fun k => hIm (ix2 b k)) bias q

/-- The score reads the tails and the bias only at the entity, and the head only coordinate by coordinate: two readings
    that agree there (over arrays of different numbers of entities, too) give one score. -/
theorem rowScore_congr {n n' : ℕ} {tRe tIm : (⟨2, ![n, 500]⟩ : Shape).Idx → EReal} {tRe' tIm' : (⟨2, ![n', 500]⟩ : Shape).Idx → EReal}
    {hRe hIm hRe' hIm' : Fin 500 → EReal}
    {bias : (⟨2, ![1, n]⟩ : Shape).Idx → EReal} {bias' : (⟨2, ![1, n']⟩ : Shape).Idx → EReal} {q : Fin n} {q' : Fin n'}
    (hre : ∀ k : Fin 500, hRe k = hRe' k) (him : ∀ k : Fin 500, hIm k = hIm' k)
    (tre : ∀ k : Fin 500, tRe (ix2 q k) = tRe' (ix2 q' k)) (tim : ∀ k : Fin 500, tIm (ix2 q k) = tIm' (ix2 q' k))
    (hb : bias (ix2 (0 : Fin 1) q) = bias' (ix2 (0 : Fin 1) q')) :
    rowScore tRe tIm hRe hIm bias q = rowScore tRe' tIm' hRe' hIm' bias' q' := by
  unfold rowScore
  rw [hb]
  refine congrArg (fun s => Ideal.logistic ((Ideal.ofBits .f32 0x41400000#32 - s) + bias' (ix2 (0 : Fin 1) q'))) ?_
  exact Finset.sum_congr rfl fun k _ => by rw [hre k, him k, tre k, tim k]

/-! ## The heads' rotation, and the score over the program's own tables

The program looks eight head rows `H` (each 500 real parts followed by 500 imaginary parts) and eight relation rows `R`
(500 phases each, in units of the f32 word 0x3C12067A) up in its tables, rotates each head coordinate by its phase,

    rot b k = (H b k + i·H b (500+k)) · (cos φ + i·sin φ),      φ = R b k / 0x3C12067A,

and scores the rotated heads against every entity's row of the entity table `E` (again 500 real parts, then 500
imaginary parts) with the bias vector `B`. -/

/-- Column `k` of the real half of a 1000-column row. -/
def lo (k : Fin 500) : Fin 1000 := ⟨k.val, Nat.lt_of_lt_of_le k.isLt (by decide)⟩
/-- Column `k` of the imaginary half. -/
def hi (k : Fin 500) : Fin 1000 := ⟨500 + k.val, by have := k.isLt; omega⟩

/-- The phase of batch row `b` at coordinate `k`. -/
def phase (R : (⟨2, ![8, 500]⟩ : Shape).Idx → EReal) (b : Fin 8) (k : Fin 500) : EReal :=
  Ideal.div (R (ix2 b k)) (Ideal.ofBits .f32 0x3C12067A#32)

/-- The rotated head's real part. -/
def rotRe (H : (⟨2, ![8, 1000]⟩ : Shape).Idx → EReal) (R : (⟨2, ![8, 500]⟩ : Shape).Idx → EReal) (b : Fin 8) (k : Fin 500) : EReal :=
  H (ix2 b (lo k)) * Ideal.cos (phase R b k) - H (ix2 b (hi k)) * Ideal.sin (phase R b k)

/-- The rotated head's imaginary part. -/
def rotIm (H : (⟨2, ![8, 1000]⟩ : Shape).Idx → EReal) (R : (⟨2, ![8, 500]⟩ : Shape).Idx → EReal) (b : Fin 8) (k : Fin 500) : EReal :=
  H (ix2 b (lo k)) * Ideal.sin (phase R b k) + H (ix2 b (hi k)) * Ideal.cos (phase R b k)

/-- The score of batch row `b` against entity `e`, from the gathered rows and the two tables. -/
def tableScore (H : (⟨2, ![8, 1000]⟩ : Shape).Idx → EReal) (R : (⟨2, ![8, 500]⟩ : Shape).Idx → EReal)
    (E : (⟨2, ![14541, 1000]⟩ : Shape).Idx → EReal) (B : (⟨1, ![14541]⟩ : Shape).Idx → EReal) (b : Fin 8) (e : Fin 14541) : EReal :=
  Ideal.logistic ((Ideal.ofBits .f32 0x41400000#32
      - ∑ k : Fin 500, modulus (rotRe H R b k) (E (ix2 e (lo k))) (rotIm H R b k) (E (ix2 e (hi k))))
    + B (ix1 e))

end Cert.ScoreSpec

end
-- ==== Proof.IdealTileValue.lean ====
/-
  The output tile at the exact instance, entry by entry.

  Each of the eight row stores of a grid step writes the same expression of the two tail tiles, one row of each rotated
  head and the bias tile; read on the extended reals at entity `q` it is the score's formula (`row_apply`): the sum over
  the 500 coordinates of the modulus of head minus tail, taken from 12, plus the bias, through the logistic. Row `b` of
  the tile is the last store into row `b`, so entry (b, q) of the tile is the score of batch row `b` against entity `q`
  of the tile (`tileOut_apply`).
-/
import proofs.«144243_j71253507441336_2_alg».proof.Proof.IdealTile
import proofs.«144243_j71253507441336_2_alg».proof.Proof.ScoreSpec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.TileValue

open Cert.KernelIdeal Cert.KernelIdeal.Gen Cert.KernelIdeal.Tile Cert.ScoreSpec
open Idealize.ShloMosaic Idealize.ShloMosaic.ValueIdx

/-- One row of the output tile at the exact instance: the body's arithmetic on two [1024,500] tail tiles `v0`, `v2`, one
    row `hre`, `him` of each rotated head and the bias tile `v4`, read at entity `q` of the tile, is the score's
    formula. -/
theorem row_apply (v0 v2 : Vec Ideal S1024x500 .f32) (v4 : Vec Ideal S1x1024 .f32) (hre him : Vec Ideal S1x500 .f32) (q : Fin 1024) :
    k0_pay5 (F := Ideal) v0 v2 v4 hre him (ix2 (0 : Fin 1) q)
      = rowScore (n := 1024) v0 v2 (fun k => hre (ix2 (0 : Fin 1) k)) (fun k => him (ix2 (0 : Fin 1) k)) v4 q := by
  unfold rowScore k0_pay5 k0_pay2 k0_pay3 k0_pay4
  refine (shapeCast_a_1a_apply _ _ (0 : Fin 1) q).trans ?_
  refine congrArg Ideal.logistic ?_
  refine congrArg₂ (· + ·) (congrArg (Ideal.ofBits .f32 0x41400000#32 - ·) ?_) (shapeCast_1a_a_apply v4 _ q)
  refine (Ideal.multiReduction_add_single _ _ _ _ _ (ix1 q)).trans ?_
  refine Finset.sum_congr rfl fun (k : Fin 500) _ => ?_
  have e : reduces_S1024x500_S1024.lift (ix1 q) k = ix2 q k := funext fun d => Fin.ext (by
    match d with
    | ⟨0, _⟩ => rfl
    | ⟨1, _⟩ => rfl)
  refine (congrArg _ e).trans ?_
  have hb : ∀ h : Vec Ideal S1x500 .f32, broadcastTo S1024x500 (shapeCast S1x500 (shapeCast S500 h shapeCasts_S1x500_S500) shapeCasts_S500_S1x500)
      broadcasts_S1x500_S1024x500 (ix2 q k) = h (ix2 (0 : Fin 1) k) := fun h =>
    (broadcastTo_1b_ab_apply _ _ q k).trans (congrFun (shapeCast_shapeCast h _ _) _)
  have hs : ∀ v : Vec Ideal S1024x500 .f32, shapeCast S1024x500 v shapeCasts_S1024x500_S1024x500 (ix2 q k) = v (ix2 q k) := fun v =>
    congrFun (shapeCast_self v _) _
  unfold modulus
  have h1 := congrArg₂ (· - ·) (hb hre) (hs v0)
  have h2 := congrArg₂ (· - ·) (hb him) (hs v2)
  exact congrArg Ideal.sqrt (congrArg₂ (· + ·) (congrArg₂ (· * ·) h1 h1) (congrArg₂ (· * ·) h2 h2))

/-- The eight row payloads are one expression, of row `b` of the two heads. -/
theorem tileOut_rows {F : FTy → Type} [FloatOps F] (x0 x1 : Vec F S1024x500 .f32) (x2 x3 : Vec F S8x500 .f32) (x4 : Vec F S1x1024 .f32) :
    tileOut x0 x1 x2 x3 x4 = View.canon [
    ⟨rOut7, k0_pay5 (View.ld x0 rTail) (View.ld x1 rTail) (View.ld x4 rBias) (View.ld x2 rHead7) (View.ld x3 rHead7)⟩,
    ⟨rOut6, k0_pay5 (View.ld x0 rTail) (View.ld x1 rTail) (View.ld x4 rBias) (View.ld x2 rHead6) (View.ld x3 rHead6)⟩,
    ⟨rOut5, k0_pay5 (View.ld x0 rTail) (View.ld x1 rTail) (View.ld x4 rBias) (View.ld x2 rHead5) (View.ld x3 rHead5)⟩,
    ⟨rOut4, k0_pay5 (View.ld x0 rTail) (View.ld x1 rTail) (View.ld x4 rBias) (View.ld x2 rHead4) (View.ld x3 rHead4)⟩,
    ⟨rOut3, k0_pay5 (View.ld x0 rTail) (View.ld x1 rTail) (View.ld x4 rBias) (View.ld x2 rHead3) (View.ld x3 rHead3)⟩,
    ⟨rOut2, k0_pay5 (View.ld x0 rTail) (View.ld x1 rTail) (View.ld x4 rBias) (View.ld x2 rHead2) (View.ld x3 rHead2)⟩,
    ⟨rOut1, k0_pay5 (View.ld x0 rTail) (View.ld x1 rTail) (View.ld x4 rBias) (View.ld x2 rHead1) (View.ld x3 rHead1)⟩,
    ⟨rOut0, k0_pay5 (View.ld x0 rTail) (View.ld x1 rTail) (View.ld x4 rBias) (View.ld x2 rHead0) (View.ld x3 rHead0)⟩] := rfl

/-- An entry of row `b` of the tile is not in row `k ≠ b`. -/
theorem not_mem_row (k b : ℕ) (hkb : k ≠ b) (hb : b < 8) (q : Fin 1024) (inb) :
    ix2 (⟨b, hb⟩ : Fin 8) q ∉ (Rect.unit (s := S8x1024) ![k, 0] S1x1024.size inb).set := fun h => by
  have h0 := (Rect.mem_set_unit.mp h) 0
  have h1 : k ≤ b ∧ b < k + 1 := h0
  omega

/-- So the tile's contents at such an entry are what the earlier stores left. -/
theorem canon_skip (k b : ℕ) (hkb : k ≠ b) (hb : b < 8) (q : Fin 1024) (inb)
    (w : (Rect.unit (s := S8x1024) ![k, 0] S1x1024.size inb).shape.Idx → Elt Ideal .f32) (L : List (View.Piece (Elt Ideal) S8x1024 .f32)) :
    View.canon (⟨Rect.unit (s := S8x1024) ![k, 0] S1x1024.size inb, w⟩ :: L) (ix2 (⟨b, hb⟩ : Fin 8) q)
      = View.canon L (ix2 (⟨b, hb⟩ : Fin 8) q) :=
  View.canon_cons_of_not_mem ⟨Rect.unit (s := S8x1024) ![k, 0] S1x1024.size inb, w⟩ L (not_mem_row k b hkb hb q inb)

/-- Row 0 of the tile is the last store into it. -/
theorem tileOut_row0 (x0 x1 : Vec Ideal S1024x500 .f32) (x2 x3 : Vec Ideal S8x500 .f32) (x4 : Vec Ideal S1x1024 .f32) (q : Fin 1024) :
    tileOut x0 x1 x2 x3 x4 (ix2 (⟨0, by decide⟩ : Fin 8) q) = score (n := 1024) x0 x1 x2 x3 x4 (⟨0, by decide⟩ : Fin 8) q := by
  rw [tileOut_rows]
  rw [canon_skip 7 0 (by decide) (by decide) q]
  rw [canon_skip 6 0 (by decide) (by decide) q]
  rw [canon_skip 5 0 (by decide) (by decide) q]
  rw [canon_skip 4 0 (by decide) (by decide) q]
  rw [canon_skip 3 0 (by decide) (by decide) q]
  rw [canon_skip 2 0 (by decide) (by decide) q]
  rw [canon_skip 1 0 (by decide) (by decide) q]
  have e : ix2 (⟨0, by decide⟩ : Fin 8) q = rOut0.emb (ix2 (0 : Fin 1) q) := funext fun a => Fin.ext (by
    match a with
    | ⟨0, _⟩ => rfl
    | ⟨1, _⟩ => show q.val = 0 + 1 * q.val; omega)
  rw [e, View.canon_cons_emb]
  refine (row_apply _ _ _ _ _ q).trans ?_
  unfold score
  refine rowScore_congr (fun k => ?_) (fun k => ?_) (fun k => ?_) (fun k => ?_) ?_
  · exact congrArg x2 (funext fun a => Fin.ext (by
      match a with
      | ⟨0, _⟩ => rfl
      | ⟨1, _⟩ => show 0 + 1 * k.val = k.val; omega))
  · exact congrArg x3 (funext fun a => Fin.ext (by
      match a with
      | ⟨0, _⟩ => rfl
      | ⟨1, _⟩ => show 0 + 1 * k.val = k.val; omega))
  · exact congrArg x0 (funext fun a => Fin.ext (by
      match a with
      | ⟨0, _⟩ => show 0 + 1 * q.val = q.val; omega
      | ⟨1, _⟩ => show 0 + 1 * k.val = k.val; omega))
  · exact congrArg x1 (funext fun a => Fin.ext (by
      match a with
      | ⟨0, _⟩ => show 0 + 1 * q.val = q.val; omega
      | ⟨1, _⟩ => show 0 + 1 * k.val = k.val; omega))
  · exact congrArg x4 (funext fun a => Fin.ext (by
      match a with
      | ⟨0, _⟩ => rfl
      | ⟨1, _⟩ => show 0 + 1 * q.val = q.val; omega))

/-- Row 1 of the tile is the last store into it. -/
theorem tileOut_row1 (x0 x1 : Vec Ideal S1024x500 .f32) (x2 x3 : Vec Ideal S8x500 .f32) (x4 : Vec Ideal S1x1024 .f32) (q : Fin 1024) :
    tileOut x0 x1 x2 x3 x4 (ix2 (⟨1, by decide⟩ : Fin 8) q) = score (n := 1024) x0 x1 x2 x3 x4 (⟨1, by decide⟩ : Fin 8) q := by
  rw [tileOut_rows]
  rw [canon_skip 7 1 (by decide) (by decide) q]
  rw [canon_skip 6 1 (by decide) (by decide) q]
  rw [canon_skip 5 1 (by decide) (by decide) q]
  rw [canon_skip 4 1 (by decide) (by decide) q]
  rw [canon_skip 3 1 (by decide) (by decide) q]
  rw [canon_skip 2 1 (by decide) (by decide) q]
  have e : ix2 (⟨1, by decide⟩ : Fin 8) q = rOut1.emb (ix2 (0 : Fin 1) q) := funext fun a => Fin.ext (by
    match a with
    | ⟨0, _⟩ => rfl
    | ⟨1, _⟩ => show q.val = 0 + 1 * q.val; omega)
  rw [e, View.canon_cons_emb]
  refine (row_apply _ _ _ _ _ q).trans ?_
  unfold score
  refine rowScore_congr (fun k => ?_) (fun k => ?_) (fun k => ?_) (fun k => ?_) ?_
  · exact congrArg x2 (funext fun a => Fin.ext (by
      match a with
      | ⟨0, _⟩ => rfl
      | ⟨1, _⟩ => show 0 + 1 * k.val = k.val; omega))
  · exact congrArg x3 (funext fun a => Fin.ext (by
      match a with
      | ⟨0, _⟩ => rfl
      | ⟨1, _⟩ => show 0 + 1 * k.val = k.val; omega))
  · exact congrArg x0 (funext fun a => Fin.ext (by
      match a with
      | ⟨0, _⟩ => show 0 + 1 * q.val = q.val; omega
      | ⟨1, _⟩ => show 0 + 1 * k.val = k.val; omega))
  · exact congrArg x1 (funext fun a => Fin.ext (by
      match a with
      | ⟨0, _⟩ => show 0 + 1 * q.val = q.val; omega
      | ⟨1, _⟩ => show 0 + 1 * k.val = k.val; omega))
  · exact congrArg x4 (funext fun a => Fin.ext (by
      match a with
      | ⟨0, _⟩ => rfl
      | ⟨1, _⟩ => show 0 + 1 * q.val = q.val; omega))

/-- Row 2 of the tile is the last store into it. -/
theorem tileOut_row2 (x0 x1 : Vec Ideal S1024x500 .f32) (x2 x3 : Vec Ideal S8x500 .f32) (x4 : Vec Ideal S1x1024 .f32) (q : Fin 1024) :
    tileOut x0 x1 x2 x3 x4 (ix2 (⟨2, by decide⟩ : Fin 8) q) = score (n := 1024) x0 x1 x2 x3 x4 (⟨2, by decide⟩ : Fin 8) q := by
  rw [tileOut_rows]
  rw [canon_skip 7 2 (by decide) (by decide) q]
  rw [canon_skip 6 2 (by decide) (by decide) q]
  rw [canon_skip 5 2 (by decide) (by decide) q]
  rw [canon_skip 4 2 (by decide) (by decide) q]
  rw [canon_skip 3 2 (by decide) (by decide) q]
  have e : ix2 (⟨2, by decide⟩ : Fin 8) q = rOut2.emb (ix2 (0 : Fin 1) q) := funext fun a => Fin.ext (by
    match a with
    | ⟨0, _⟩ => rfl
    | ⟨1, _⟩ => show q.val = 0 + 1 * q.val; omega)
  rw [e, View.canon_cons_emb]
  refine (row_apply _ _ _ _ _ q).trans ?_
  unfold score
  refine rowScore_congr (fun k => ?_) (fun k => ?_) (fun k => ?_) (fun k => ?_) ?_
  · exact congrArg x2 (funext fun a => Fin.ext (by
      match a with
      | ⟨0, _⟩ => rfl
      | ⟨1, _⟩ => show 0 + 1 * k.val = k.val; omega))
  · exact congrArg x3 (funext fun a => Fin.ext (by
      match a with
      | ⟨0, _⟩ => rfl
      | ⟨1, _⟩ => show 0 + 1 * k.val = k.val; omega))
  · exact congrArg x0 (funext fun a => Fin.ext (by
      match a with
      | ⟨0, _⟩ => show 0 + 1 * q.val = q.val; omega
      | ⟨1, _⟩ => show 0 + 1 * k.val = k.val; omega))
  · exact congrArg x1 (funext fun a => Fin.ext (by
      match a with
      | ⟨0, _⟩ => show 0 + 1 * q.val = q.val; omega
      | ⟨1, _⟩ => show 0 + 1 * k.val = k.val; omega))
  · exact congrArg x4 (funext fun a => Fin.ext (by
      match a with
      | ⟨0, _⟩ => rfl
      | ⟨1, _⟩ => show 0 + 1 * q.val = q.val; omega))

/-- Row 3 of the tile is the last store into it. -/
theorem tileOut_row3 (x0 x1 : Vec Ideal S1024x500 .f32) (x2 x3 : Vec Ideal S8x500 .f32) (x4 : Vec Ideal S1x1024 .f32) (q : Fin 1024) :
    tileOut x0 x1 x2 x3 x4 (ix2 (⟨3, by decide⟩ : Fin 8) q) = score (n := 1024) x0 x1 x2 x3 x4 (⟨3, by decide⟩ : Fin 8) q := by
  rw [tileOut_rows]
  rw [canon_skip 7 3 (by decide) (by decide) q]
  rw [canon_skip 6 3 (by decide) (by decide) q]
  rw [canon_skip 5 3 (by decide) (by decide) q]
  rw [canon_skip 4 3 (by decide) (by decide) q]
  have e : ix2 (⟨3, by decide⟩ : Fin 8) q = rOut3.emb (ix2 (0 : Fin 1) q) := funext fun a => Fin.ext (by
    match a with
    | ⟨0, _⟩ => rfl
    | ⟨1, _⟩ => show q.val = 0 + 1 * q.val; omega)
  rw [e, View.canon_cons_emb]
  refine (row_apply _ _ _ _ _ q).trans ?_
  unfold score
  refine rowScore_congr (fun k => ?_) (fun k => ?_) (fun k => ?_) (fun k => ?_) ?_
  · exact congrArg x2 (funext fun a => Fin.ext (by
      match a with
      | ⟨0, _⟩ => rfl
      | ⟨1, _⟩ => show 0 + 1 * k.val = k.val; omega))
  · exact congrArg x3 (funext fun a => Fin.ext (by
      match a with
      | ⟨0, _⟩ => rfl
      | ⟨1, _⟩ => show 0 + 1 * k.val = k.val; omega))
  · exact congrArg x0 (funext fun a => Fin.ext (by
      match a with
      | ⟨0, _⟩ => show 0 + 1 * q.val = q.val; omega
      | ⟨1, _⟩ => show 0 + 1 * k.val = k.val; omega))
  · exact congrArg x1 (funext fun a => Fin.ext (by
      match a with
      | ⟨0, _⟩ => show 0 + 1 * q.val = q.val; omega
      | ⟨1, _⟩ => show 0 + 1 * k.val = k.val; omega))
  · exact congrArg x4 (funext fun a => Fin.ext (by
      match a with
      | ⟨0, _⟩ => rfl
      | ⟨1, _⟩ => show 0 + 1 * q.val = q.val; omega))

/-- Row 4 of the tile is the last store into it. -/
theorem tileOut_row4 (x0 x1 : Vec Ideal S1024x500 .f32) (x2 x3 : Vec Ideal S8x500 .f32) (x4 : Vec Ideal S1x1024 .f32) (q : Fin 1024) :
    tileOut x0 x1 x2 x3 x4 (ix2 (⟨4, by decide⟩ : Fin 8) q) = score (n := 1024) x0 x1 x2 x3 x4 (⟨4, by decide⟩ : Fin 8) q := by
  rw [tileOut_rows]
  rw [canon_skip 7 4 (by decide) (by decide) q]
  rw [canon_skip 6 4 (by decide) (by decide) q]
  rw [canon_skip 5 4 (by decide) (by decide) q]
  have e : ix2 (⟨4, by decide⟩ : Fin 8) q = rOut4.emb (ix2 (0 : Fin 1) q) := funext fun a => Fin.ext (by
    match a with
    | ⟨0, _⟩ => rfl
    | ⟨1, _⟩ => show q.val = 0 + 1 * q.val; omega)
  rw [e, View.canon_cons_emb]
  refine (row_apply _ _ _ _ _ q).trans ?_
  unfold score
  refine rowScore_congr (fun k => ?_) (fun k => ?_) (fun k => ?_) (fun k => ?_) ?_
  · exact congrArg x2 (funext fun a => Fin.ext (by
      match a with
      | ⟨0, _⟩ => rfl
      | ⟨1, _⟩ => show 0 + 1 * k.val = k.val; omega))
  · exact congrArg x3 (funext fun a => Fin.ext (by
      match a with
      | ⟨0, _⟩ => rfl
      | ⟨1, _⟩ => show 0 + 1 * k.val = k.val; omega))
  · exact congrArg x0 (funext fun a => Fin.ext (by
      match a with
      | ⟨0, _⟩ => show 0 + 1 * q.val = q.val; omega
      | ⟨1, _⟩ => show 0 + 1 * k.val = k.val; omega))
  · exact congrArg x1 (funext fun a => Fin.ext (by
      match a with
      | ⟨0, _⟩ => show 0 + 1 * q.val = q.val; omega
      | ⟨1, _⟩ => show 0 + 1 * k.val = k.val; omega))
  · exact congrArg x4 (funext fun a => Fin.ext (by
      match a with
      | ⟨0, _⟩ => rfl
      | ⟨1, _⟩ => show 0 + 1 * q.val = q.val; omega))

/-- Row 5 of the tile is the last store into it. -/
theorem tileOut_row5 (x0 x1 : Vec Ideal S1024x500 .f32) (x2 x3 : Vec Ideal S8x500 .f32) (x4 : Vec Ideal S1x1024 .f32) (q : Fin 1024) :
    tileOut x0 x1 x2 x3 x4 (ix2 (⟨5, by decide⟩ : Fin 8) q) = score (n := 1024) x0 x1 x2 x3 x4 (⟨5, by decide⟩ : Fin 8) q := by
  rw [tileOut_rows]
  rw [canon_skip 7 5 (by decide) (by decide) q]
  rw [canon_skip 6 5 (by decide) (by decide) q]
  have e : ix2 (⟨5, by decide⟩ : Fin 8) q = rOut5.emb (ix2 (0 : Fin 1) q) := funext fun a => Fin.ext (by
    match a with
    | ⟨0, _⟩ => rfl
    | ⟨1, _⟩ => show q.val = 0 + 1 * q.val; omega)
  rw [e, View.canon_cons_emb]
  refine (row_apply _ _ _ _ _ q).trans ?_
  unfold score
  refine rowScore_congr (fun k => ?_) (fun k => ?_) (fun k => ?_) (fun k => ?_) ?_
  · exact congrArg x2 (funext fun a => Fin.ext (by
      match a with
      | ⟨0, _⟩ => rfl
      | ⟨1, _⟩ => show 0 + 1 * k.val = k.val; omega))
  · exact congrArg x3 (funext fun a => Fin.ext (by
      match a with
      | ⟨0, _⟩ => rfl
      | ⟨1, _⟩ => show 0 + 1 * k.val = k.val; omega))
  · exact congrArg x0 (funext fun a => Fin.ext (by
      match a with
      | ⟨0, _⟩ => show 0 + 1 * q.val = q.val; omega
      | ⟨1, _⟩ => show 0 + 1 * k.val = k.val; omega))
  · exact congrArg x1 (funext fun a => Fin.ext (by
      match a with
      | ⟨0, _⟩ => show 0 + 1 * q.val = q.val; omega
      | ⟨1, _⟩ => show 0 + 1 * k.val = k.val; omega))
  · exact congrArg x4 (funext fun a => Fin.ext (by
      match a with
      | ⟨0, _⟩ => rfl
      | ⟨1, _⟩ => show 0 + 1 * q.val = q.val; omega))

/-- Row 6 of the tile is the last store into it. -/
theorem tileOut_row6 (x0 x1 : Vec Ideal S1024x500 .f32) (x2 x3 : Vec Ideal S8x500 .f32) (x4 : Vec Ideal S1x1024 .f32) (q : Fin 1024) :
    tileOut x0 x1 x2 x3 x4 (ix2 (⟨6, by decide⟩ : Fin 8) q) = score (n := 1024) x0 x1 x2 x3 x4 (⟨6, by decide⟩ : Fin 8) q := by
  rw [tileOut_rows]
  rw [canon_skip 7 6 (by decide) (by decide) q]
  have e : ix2 (⟨6, by decide⟩ : Fin 8) q = rOut6.emb (ix2 (0 : Fin 1) q) := funext fun a => Fin.ext (by
    match a with
    | ⟨0, _⟩ => rfl
    | ⟨1, _⟩ => show q.val = 0 + 1 * q.val; omega)
  rw [e, View.canon_cons_emb]
  refine (row_apply _ _ _ _ _ q).trans ?_
  unfold score
  refine rowScore_congr (fun k => ?_) (fun k => ?_) (fun k => ?_) (fun k => ?_) ?_
  · exact congrArg x2 (funext fun a => Fin.ext (by
      match a with
      | ⟨0, _⟩ => rfl
      | ⟨1, _⟩ => show 0 + 1 * k.val = k.val; omega))
  · exact congrArg x3 (funext fun a => Fin.ext (by
      match a with
      | ⟨0, _⟩ => rfl
      | ⟨1, _⟩ => show 0 + 1 * k.val = k.val; omega))
  · exact congrArg x0 (funext fun a => Fin.ext (by
      match a with
      | ⟨0, _⟩ => show 0 + 1 * q.val = q.val; omega
      | ⟨1, _⟩ => show 0 + 1 * k.val = k.val; omega))
  · exact congrArg x1 (funext fun a => Fin.ext (by
      match a with
      | ⟨0, _⟩ => show 0 + 1 * q.val = q.val; omega
      | ⟨1, _⟩ => show 0 + 1 * k.val = k.val; omega))
  · exact congrArg x4 (funext fun a => Fin.ext (by
      match a with
      | ⟨0, _⟩ => rfl
      | ⟨1, _⟩ => show 0 + 1 * q.val = q.val; omega))

/-- Row 7 of the tile is the last store into it. -/
theorem tileOut_row7 (x0 x1 : Vec Ideal S1024x500 .f32) (x2 x3 : Vec Ideal S8x500 .f32) (x4 : Vec Ideal S1x1024 .f32) (q : Fin 1024) :
    tileOut x0 x1 x2 x3 x4 (ix2 (⟨7, by decide⟩ : Fin 8) q) = score (n := 1024) x0 x1 x2 x3 x4 (⟨7, by decide⟩ : Fin 8) q := by
  rw [tileOut_rows]

  have e : ix2 (⟨7, by decide⟩ : Fin 8) q = rOut7.emb (ix2 (0 : Fin 1) q) := funext fun a => Fin.ext (by
    match a with
    | ⟨0, _⟩ => rfl
    | ⟨1, _⟩ => show q.val = 0 + 1 * q.val; omega)
  rw [e, View.canon_cons_emb]
  refine (row_apply _ _ _ _ _ q).trans ?_
  unfold score
  refine rowScore_congr (fun k => ?_) (fun k => ?_) (fun k => ?_) (fun k => ?_) ?_
  · exact congrArg x2 (funext fun a => Fin.ext (by
      match a with
      | ⟨0, _⟩ => rfl
      | ⟨1, _⟩ => show 0 + 1 * k.val = k.val; omega))
  · exact congrArg x3 (funext fun a => Fin.ext (by
      match a with
      | ⟨0, _⟩ => rfl
      | ⟨1, _⟩ => show 0 + 1 * k.val = k.val; omega))
  · exact congrArg x0 (funext fun a => Fin.ext (by
      match a with
      | ⟨0, _⟩ => show 0 + 1 * q.val = q.val; omega
      | ⟨1, _⟩ => show 0 + 1 * k.val = k.val; omega))
  · exact congrArg x1 (funext fun a => Fin.ext (by
      match a with
      | ⟨0, _⟩ => show 0 + 1 * q.val = q.val; omega
      | ⟨1, _⟩ => show 0 + 1 * k.val = k.val; omega))
  · exact congrArg x4 (funext fun a => Fin.ext (by
      match a with
      | ⟨0, _⟩ => rfl
      | ⟨1, _⟩ => show 0 + 1 * q.val = q.val; omega))

/-- Entry (b, q) of the output tile is the score of batch row `b` against entity `q` of the tile. -/
theorem tileOut_apply (x0 x1 : Vec Ideal S1024x500 .f32) (x2 x3 : Vec Ideal S8x500 .f32) (x4 : Vec Ideal S1x1024 .f32) (b : Fin 8) (q : Fin 1024) :
    tileOut x0 x1 x2 x3 x4 (ix2 b q) = score (n := 1024) x0 x1 x2 x3 x4 b q := by
  match b with
  | ⟨0, _⟩ => exact tileOut_row0 x0 x1 x2 x3 x4 q
  | ⟨1, _⟩ => exact tileOut_row1 x0 x1 x2 x3 x4 q
  | ⟨2, _⟩ => exact tileOut_row2 x0 x1 x2 x3 x4 q
  | ⟨3, _⟩ => exact tileOut_row3 x0 x1 x2 x3 x4 q
  | ⟨4, _⟩ => exact tileOut_row4 x0 x1 x2 x3 x4 q
  | ⟨5, _⟩ => exact tileOut_row5 x0 x1 x2 x3 x4 q
  | ⟨6, _⟩ => exact tileOut_row6 x0 x1 x2 x3 x4 q
  | ⟨7, _⟩ => exact tileOut_row7 x0 x1 x2 x3 x4 q

end Cert.KernelIdeal.TileValue

end
-- ==== Proof.IdealRun.lean ====
/-
  The idealized kernel's run, with the value of its result.

  The grid has fifteen steps over 14541 entities in tiles of 1024; the last tile of the two tail arrays, of the bias and
  of the output overhangs its array by 819 entities, and nothing names what a buffer holds past the array's end. On the
  part inside the array, though, one step's output tile is a block of ONE whole-array function, `full`: entry (b, e) is
  the score of batch row `b` against entity `e`, read off the arrays the region finds (the tails' real and imaginary
  halves, the two rotated heads, the bias as a row). That is so whatever fills the inputs' buffers past the end, because
  row `q` of the output tile reads only row `q` of the tail tiles and column `q` of the bias tile (`step_tile`, over
  `TileValue.tileOut_apply`). The fifteen blocks cover the result, so after the run the result array is `full`.
-/
import proofs.«144243_j71253507441336_2_alg».proof.Proof.IdealTileValue
import Idealize.ShloMosaic.Lib.Pipeline.Kit
import Idealize.ShloMosaic.Lib.Pipeline.Value

set_option maxRecDepth 16384

noncomputable section

open scoped BigOperators

namespace Cert.KernelIdeal.Run

open Cert.KernelIdeal Cert.KernelIdeal.Gen Cert.KernelIdeal.Tile Cert.KernelIdeal.TileValue Cert.ScoreSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Where each window's block sits, decided over the fifteen steps -/

/-- Step `t` reads tail rows from `1024·t`, as many as remain below 14541, all 500 columns. -/
theorem tails_at : ∀ t : Fin cfg0.N, win0_0.index t (0 : Fin 2) = t.val ∧ win0_0.index t (1 : Fin 2) = 0
    ∧ win0_0.xsize (grid0.coords t) (0 : Fin 2) = min 1024 (14541 - 1024 * t.val) ∧ win0_0.xsize (grid0.coords t) (1 : Fin 2) = 500
    ∧ win0_1.index t (0 : Fin 2) = t.val ∧ win0_1.index t (1 : Fin 2) = 0
    ∧ win0_1.xsize (grid0.coords t) (0 : Fin 2) = min 1024 (14541 - 1024 * t.val) ∧ win0_1.xsize (grid0.coords t) (1 : Fin 2) = 500 :=
  (by decide +kernel : ∀ t : Fin grid0.N, _)

/-- The heads' one block is the whole [8,500] array at every step. -/
theorem heads_at : ∀ t : Fin cfg0.N, win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Step `t` reads bias columns, and writes output columns, from `1024·t`, as many as remain below 14541. -/
theorem cols_at : ∀ t : Fin cfg0.N, win0_4.index t (0 : Fin 2) = 0 ∧ win0_4.index t (1 : Fin 2) = t.val
    ∧ win0_4.xsize (grid0.coords t) (0 : Fin 2) = 1 ∧ win0_4.xsize (grid0.coords t) (1 : Fin 2) = min 1024 (14541 - 1024 * t.val)
    ∧ win0_5.index t (0 : Fin 2) = 0 ∧ win0_5.index t (1 : Fin 2) = t.val
    ∧ win0_5.xsize (grid0.coords t) (0 : Fin 2) = 8 ∧ win0_5.xsize (grid0.coords t) (1 : Fin 2) = min 1024 (14541 - 1024 * t.val) :=
  (by decide +kernel : ∀ t : Fin grid0.N, _)

/-! ## What the buffers read, entry by entry -/

/-- A tail buffer after the fetch at step `t`, on a row inside the array, reads the array's row `1024·t + q`. -/
theorem tailRe_read (c : Dev nD) (X : Buf (Elt Ideal) ((c : Thread nD τ).loc main_v26)) (t : Fin cfg0.N) (d)
    (q : Fin 1024) (k : Fin 500) (e : Fin 14541) (he : e.val = 1024 * t.val + q.val) :
    win0_0.fill (grid0.coords t) d ((win0_0.blk t).view.read (Elt Ideal) X) (ix2 q k) = X (ix2 e k) := by
  obtain ⟨i0, i1, s0, s1, -, -, -, -⟩ := tails_at t
  have hm : win0_0.moved (grid0.coords t) (ix2 q k) = true := (win0_0.moved_iff _ _).mpr fun a => by
    match a with
    | ⟨0, _⟩ => show q.val < win0_0.xsize (grid0.coords t) (0 : Fin 2); have := e.isLt; have := q.isLt; omega
    | ⟨1, _⟩ => show k.val < win0_0.xsize (grid0.coords t) (1 : Fin 2); have := k.isLt; omega
  unfold Window.fill
  rw [dif_pos hm]
  show X ((win0_0.blk t).view.emb _) = X (ix2 e k)
  refine congrArg X (funext fun a => Fin.ext ?_)
  match a with
  | ⟨0, _⟩ => show win0_0.index t (0 : Fin 2) * 1024 + 1 * q.val = e.val; omega
  | ⟨1, _⟩ => show win0_0.index t (1 : Fin 2) * 500 + 1 * k.val = k.val; omega

/-- The imaginary parts' buffer likewise. -/
theorem tailIm_read (c : Dev nD) (X : Buf (Elt Ideal) ((c : Thread nD τ).loc main_v27)) (t : Fin cfg0.N) (d)
    (q : Fin 1024) (k : Fin 500) (e : Fin 14541) (he : e.val = 1024 * t.val + q.val) :
    win0_1.fill (grid0.coords t) d ((win0_1.blk t).view.read (Elt Ideal) X) (ix2 q k) = X (ix2 e k) := by
  obtain ⟨-, -, -, -, i0, i1, s0, s1⟩ := tails_at t
  have hm : win0_1.moved (grid0.coords t) (ix2 q k) = true := (win0_1.moved_iff _ _).mpr fun a => by
    match a with
    | ⟨0, _⟩ => show q.val < win0_1.xsize (grid0.coords t) (0 : Fin 2); have := e.isLt; have := q.isLt; omega
    | ⟨1, _⟩ => show k.val < win0_1.xsize (grid0.coords t) (1 : Fin 2); have := k.isLt; omega
  unfold Window.fill
  rw [dif_pos hm]
  show X ((win0_1.blk t).view.emb _) = X (ix2 e k)
  refine congrArg X (funext fun a => Fin.ext ?_)
  match a with
  | ⟨0, _⟩ => show win0_1.index t (0 : Fin 2) * 1024 + 1 * q.val = e.val; omega
  | ⟨1, _⟩ => show win0_1.index t (1 : Fin 2) * 500 + 1 * k.val = k.val; omega

/-- The bias buffer after the fetch at step `t`, on a column inside the array, reads the array's column `1024·t + q`. -/
theorem bias_read (c : Dev nD) (X : Buf (Elt Ideal) ((c : Thread nD τ).loc main_v28)) (t : Fin cfg0.N) (d)
    (q : Fin 1024) (e : Fin 14541) (he : e.val = 1024 * t.val + q.val) :
    win0_4.fill (grid0.coords t) d ((win0_4.blk t).view.read (Elt Ideal) X) (ix2 (0 : Fin 1) q) = X (ix2 (0 : Fin 1) e) := by
  obtain ⟨i0, i1, s0, s1, -, -, -, -⟩ := cols_at t
  have hm : win0_4.moved (grid0.coords t) (ix2 (0 : Fin 1) q) = true := (win0_4.moved_iff _ _).mpr fun a => by
    match a with
    | ⟨0, _⟩ => show (0 : ℕ) < win0_4.xsize (grid0.coords t) (0 : Fin 2); omega
    | ⟨1, _⟩ => show q.val < win0_4.xsize (grid0.coords t) (1 : Fin 2); have := e.isLt; have := q.isLt; omega
  unfold Window.fill
  rw [dif_pos hm]
  show X ((win0_4.blk t).view.emb _) = X (ix2 (0 : Fin 1) e)
  refine congrArg X (funext fun a => Fin.ext ?_)
  match a with
  | ⟨0, _⟩ => show win0_4.index t (0 : Fin 2) * 1 + 1 * 0 = 0; omega
  | ⟨1, _⟩ => show win0_4.index t (1 : Fin 2) * 1024 + 1 * q.val = e.val; omega

/-- A rotated head's block is the whole array at every step. -/
theorem headRe_read (c : Dev nD) (X : Buf (Elt Ideal) ((c : Thread nD τ).loc main_v22)) (t : Fin cfg0.N) (b : Fin 8) (k : Fin 500) :
    (win0_2.blk t).view.read (Elt Ideal) X (ix2 b k) = X (ix2 b k) := by
  obtain ⟨i0, i1, -, -⟩ := heads_at t
  show X ((win0_2.blk t).view.emb _) = X (ix2 b k)
  refine congrArg X (funext fun a => Fin.ext ?_)
  match a with
  | ⟨0, _⟩ => show win0_2.index t (0 : Fin 2) * 8 + 1 * b.val = b.val; omega
  | ⟨1, _⟩ => show win0_2.index t (1 : Fin 2) * 500 + 1 * k.val = k.val; omega
theorem headIm_read (c : Dev nD) (X : Buf (Elt Ideal) ((c : Thread nD τ).loc main_v25)) (t : Fin cfg0.N) (b : Fin 8) (k : Fin 500) :
    (win0_3.blk t).view.read (Elt Ideal) X (ix2 b k) = X (ix2 b k) := by
  obtain ⟨-, -, i0, i1⟩ := heads_at t
  show X ((win0_3.blk t).view.emb _) = X (ix2 b k)
  refine congrArg X (funext fun a => Fin.ext ?_)
  match a with
  | ⟨0, _⟩ => show win0_3.index t (0 : Fin 2) * 8 + 1 * b.val = b.val; omega
  | ⟨1, _⟩ => show win0_3.index t (1 : Fin 2) * 500 + 1 * k.val = k.val; omega

/-! ## The proof data -/

/-- The word a buffer's unnamed part is filled out with in the proof data (nothing reads it). -/
abbrev pad : Elt Ideal .f32 := Scalar.ofBits (F := Ideal) .f32 0#32

/-- The whole result as the score of the five arrays the region finds: tails, rotated heads, bias. -/
def full (c : Dev nD) : Buf (Elt Ideal) ((c : Thread nD τ).loc main_v29) := fun i =>
  score (n := 14541) (V m c main_v26) (V m c main_v27) (V m c main_v22) (V m c main_v25) (V m c main_v28) (i 0) (i 1)

/-- The proof data of the one pipeline on core `c`: the arrays as the region finds them; after the body at step `t` each
    clipped input's buffer at its block inside the array (padded), each rotated head's at its block, and the output
    tile at block `t` of `full` (padded past the array's end); the class invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => pad) (iblk m c 0 t)
    | ⟨1, _⟩ => win0_1.fill (grid0.coords t) (fun _ => pad) (iblk m c 1 t)
    | ⟨2, _⟩ => iblk m c 2 t
    | ⟨3, _⟩ => iblk m c 3 t
    | ⟨4, _⟩ => win0_4.fill (grid0.coords t) (fun _ => pad) (iblk m c 4 t)
    | ⟨5, _⟩ => win0_5.fill (grid0.coords t) (fun _ => pad) ((win0_5.blk t).view.read (Elt Ideal) (full m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = win0_0.fill (grid0.coords t) (fun _ => pad) (iblk m c 0 t) := by dsimp only [dats]
theorem after_1 (c : Dev nD) (t : Fin cfg0.N) : (dats m 0 c).after 1 t = win0_1.fill (grid0.coords t) (fun _ => pad) (iblk m c 1 t) := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = win0_4.fill (grid0.coords t) (fun _ => pad) (iblk m c 4 t) := by dsimp only [dats]
theorem after_5 (c : Dev nD) (t : Fin cfg0.N) : (dats m 0 c).after 5 t
    = win0_5.fill (grid0.coords t) (fun _ => pad) ((win0_5.blk t).view.read (Elt Ideal) (full m c)) := by dsimp only [dats]

/-- A clipped input is fetched at every step: its buffer holds the block on the part inside the array, `d` elsewhere. -/
theorem before_0 (c : Dev nD) (t : Fin cfg0.N) (d) : (dats m 0 c).before 0 t d = win0_0.fill (grid0.coords t) d (iblk m c 0 t) := by
  unfold Dat.before; rw [if_pos (fetch0_0 t)]; rfl
theorem before_1 (c : Dev nD) (t : Fin cfg0.N) (d) : (dats m 0 c).before 1 t d = win0_1.fill (grid0.coords t) d (iblk m c 1 t) := by
  unfold Dat.before; rw [if_pos (fetch0_1 t)]; rfl
theorem before_4 (c : Dev nD) (t : Fin cfg0.N) (d) : (dats m 0 c).before 4 t d = win0_4.fill (grid0.coords t) d (iblk m c 4 t) := by
  unfold Dat.before; rw [if_pos (fetch0_4 t)]; rfl
/-- A rotated head is fetched at the first step and found in place at every later one. -/
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## One step's output tile is block `t` of the whole result -/

/-- The tile the body leaves at step `t`, the clipped inputs' buffers filled out past the arrays' end with `d0`, `d1`, `d4`. -/
def tileAt (c : Dev nD) (t : Fin cfg0.N) (d0 d1 : S1024x500.Idx → Elt Ideal .f32) (d4 : S1x1024.Idx → Elt Ideal .f32) : S8x1024.Idx → Elt Ideal .f32 :=
  tileOut (win0_0.fill (grid0.coords t) d0 (iblk m c 0 t)) (win0_1.fill (grid0.coords t) d1 (iblk m c 1 t))
    (iblk m c 2 t) (iblk m c 3 t) (win0_4.fill (grid0.coords t) d4 (iblk m c 4 t))

/-- On the part inside the array, the tile the body leaves at step `t` — whatever filled the inputs' buffers past the
    arrays' end — is block `t` of `full`: entry (b, q) of the tile is the score of batch row `b` against entity
    `1024·t + q`, whose tails and bias the fetches put in row (column) `q` of their buffers. -/
theorem step_tile (c : Dev nD) (t : Fin cfg0.N) (d0 d1 d4) :
    win0_5.cut (grid0.coords t) (tileAt m c t d0 d1 d4) = (win0_5.blk t).view.read (Elt Ideal) (full m c) := by
  unfold tileAt
  obtain ⟨-, -, -, -, o0, o1, s0, s1⟩ := cols_at t
  funext j
  have h0 : (j 0).val < win0_5.xsize (grid0.coords t) (0 : Fin 2) := (j 0).isLt
  have h1 : (j 1).val < win0_5.xsize (grid0.coords t) (1 : Fin 2) := (j 1).isLt
  have ht : t.val < 15 := t.isLt
  have hb : (j 0).val < 8 := by omega
  have hq : (j 1).val < 1024 := by omega
  have he : 1024 * t.val + (j 1).val < 14541 := by omega
  show tileOut _ _ _ _ _ (win0_5.xinj (grid0.coords t) j) = full m c ((win0_5.blk t).view.emb j)
  have ej : win0_5.xinj (grid0.coords t) j = ix2 (⟨(j 0).val, hb⟩ : Fin 8) (⟨(j 1).val, hq⟩ : Fin 1024) := funext fun a => by
    match a with
    | ⟨0, _⟩ => rfl
    | ⟨1, _⟩ => rfl
  have ee : (win0_5.blk t).view.emb j = ix2 (⟨(j 0).val, hb⟩ : Fin 8) (⟨1024 * t.val + (j 1).val, he⟩ : Fin 14541) := funext fun a => Fin.ext (by
    match a with
    | ⟨0, _⟩ => show win0_5.index t (0 : Fin 2) * 8 + 1 * (j 0).val = (j 0).val; omega
    | ⟨1, _⟩ => show win0_5.index t (1 : Fin 2) * 1024 + 1 * (j 1).val = 1024 * t.val + (j 1).val; omega)
  rw [ej, ee, tileOut_apply]
  show score _ _ _ _ _ _ _ = score (n := 14541) (V m c main_v26) (V m c main_v27) (V m c main_v22) (V m c main_v25) (V m c main_v28) _ _
  unfold score
  exact rowScore_congr
    (fun k => headRe_read c (V m c main_v22) t ⟨(j 0).val, hb⟩ k)
    (fun k => headIm_read c (V m c main_v25) t ⟨(j 0).val, hb⟩ k)
    (fun k => tailRe_read c (V m c main_v26) t d0 ⟨(j 1).val, hq⟩ k ⟨1024 * t.val + (j 1).val, he⟩ rfl)
    (fun k => tailIm_read c (V m c main_v27) t d1 ⟨(j 1).val, hq⟩ k ⟨1024 * t.val + (j 1).val, he⟩ rfl)
    (bias_read c (V m c main_v28) t d4 ⟨(j 1).val, hq⟩ ⟨1024 * t.val + (j 1).val, he⟩ rfl)

/-- The output tile is fresh at every step: the step before wrote it back. -/
theorem before_5 (c : Dev nD) (t : Fin cfg0.N) (d) : (dats m 0 c).before 5 t d = d :=
  (dats m 0 c).before_out_reset 5 rfl t (by
    by_cases h : t.val = 0
    · exact .inl h
    · exact .inr ⟨h, flush0_5 _⟩) d

/-! ## The body obligation -/

/-- The body at step `t` on what the pipeline hands it: the inputs' buffers as `before_*` say, the output's at anything;
    it hands back, on the part inside the array, what the proof data's `after` names: the inputs' blocks and block `t` of
    `full` (`step_tile`). -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d)))
    ⊢ wp frame (wpE (defs₀ (F := Ideal)) Variants.none c none) Set.univ (bodyAt0 t) (fun _ =>
      iprop((dats m 0 c).Φ t.succ ∗ (dats m 0 c).owesAt () t.succ
        ∗ (∃ d, owns (c : Thread nD τ) (st0_0 t) fullShare (win0_0.fill (grid0.coords t) d (win0_0.cut (grid0.coords t) ((dats m 0 c).after 0 t))))
        ∗ (∃ d, owns (c : Thread nD τ) (st0_1 t) fullShare (win0_1.fill (grid0.coords t) d (win0_1.cut (grid0.coords t) ((dats m 0 c).after 1 t))))
        ∗ owns (c : Thread nD τ) (st0_2 t) fullShare ((dats m 0 c).after 2 t)
        ∗ owns (c : Thread nD τ) (st0_3 t) fullShare ((dats m 0 c).after 3 t)
        ∗ (∃ d, owns (c : Thread nD τ) (st0_4 t) fullShare (win0_4.fill (grid0.coords t) d (win0_4.cut (grid0.coords t) ((dats m 0 c).after 4 t))))
        ∗ (∃ d, owns (c : Thread nD τ) (st0_5 t) fullShare (win0_5.fill (grid0.coords t) d (win0_5.cut (grid0.coords t) ((dats m 0 c).after 5 t)))))) := by
  unfold bodyAt0
  rw [show (dats m 0 c).Φ t.succ = (dats m 0 c).Φ t.castSucc from rfl,
    show (dats m 0 c).owesAt () t.succ = (dats m 0 c).owesAt () t.castSucc from rfl,
    after_0, after_1, after_2, after_3, after_4, after_5]
  simp only [Window.cut_fill]
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4, before_5 m c t d5]
  iapply (body_triple (F := Ideal) c Set.univ _ _ _ _ _ _ _ _ _ _ _ _ _
    (win0_0.fill (grid0.coords t) d0 (iblk m c 0 t)) (win0_1.fill (grid0.coords t) d1 (iblk m c 1 t))
    (iblk m c 2 t) (iblk m c 3 t) (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists d5; iexact H5
  iintro ⟨H0, H1, H2, H3, H4, H5⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  isplitl [H4]; · iexists d4; iexact H4
  iexists tileAt m c t d0 d1 d4
  rw [← step_tile m c t d0 d1 d4, Window.fill_cut]
  iexact H5

/-- The library's body obligation, at every step. -/
theorem body_obligation (c : Dev nD) : BodyObligationLoose (dats m 0 c) (defs₀ (F := Ideal)) Variants.none () Set.univ := fun t => by
  rw [bigSep_W0, bigSep_W0]
  exact sound_body m c t

/-! ## The run, and the result array -/

set_option backward.isDefEq.respectTransparency.types false in
/-- Every weakly fair execution of @main terminates, nothing faulting; every windowed array ends at what the library
    computes from the proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- What step `t` writes back is block `t` of `full`. -/
theorem flushed_eq (c : Dev nD) (t : Fin cfg0.N) :
    (dats m 0 c).flushed 5 t = ((cfg0.win 5).blk t).view.read (Elt Ideal) (full m c) := by
  show (cfg0.win 5).cut (grid0.coords t) ((dats m 0 c).after 5 t) = _
  rw [after_5]; exact win0_5.cut_fill _ _ _

/-- An index of the result is in step `t`'s block iff each coordinate is in the block's range inside the array. -/
theorem mem_blk (t : Fin cfg0.N) (i : S8x14541.Idx) :
    i ∈ ((cfg0.win 5).blk t).view.set ↔ ∀ a : Fin 2, win0_5.index t a * S8x1024.size a ≤ (i a).val
      ∧ (i a).val < win0_5.index t a * S8x1024.size a + win0_5.xsize (grid0.coords t) a := by
  show i ∈ ((View.whole main_v29).slice (win0_5.rect t)).set ↔ _
  rw [View.set_slice_whole, Rect.mem_set_unit]
  exact Iff.rfl

/-- The fifteen blocks cover the result: entity `e` is written at step `e / 1024`. -/
theorem cover (i : S8x14541.Idx) : ∃ t : Fin cfg0.N, (cfg0.win 5).flush t = true ∧ i ∈ ((cfg0.win 5).blk t).view.set := by
  have hi0 : (i 0).val < 8 := (i 0).isLt
  have hi1 : (i 1).val < 14541 := (i 1).isLt
  have hN : cfg0.N = 15 := N_0
  refine ⟨⟨(i 1).val / 1024, by omega⟩, flush0_5 _, (mem_blk _ i).mpr fun a => ?_⟩
  obtain ⟨-, -, -, -, o0, o1, s0, s1⟩ := cols_at ⟨(i 1).val / 1024, by omega⟩
  match a with
  | ⟨0, _⟩ =>
    show win0_5.index _ (0 : Fin 2) * 8 ≤ (i 0).val ∧ (i 0).val < win0_5.index _ (0 : Fin 2) * 8 + win0_5.xsize _ (0 : Fin 2)
    rw [o0, s0]; omega
  | ⟨1, _⟩ =>
    show win0_5.index _ (1 : Fin 2) * 1024 ≤ (i 1).val ∧ (i 1).val < win0_5.index _ (1 : Fin 2) * 1024 + win0_5.xsize _ (1 : Fin 2)
    rw [o1, s1]
    show (i 1).val / 1024 * 1024 ≤ (i 1).val ∧ (i 1).val < (i 1).val / 1024 * 1024 + min 1024 (14541 - 1024 * ((i 1).val / 1024))
    omega

/-- The result array after the run is `full`. -/
theorem final (c : Dev nD) : (dats m 0 c).arrAt 5 cfg0.N = full m c :=
  (dats m 0 c).arrAt_eq_of_cover 5 (full m c) (fun t _ => flushed_eq m c t) cover

/-- The run re-posted: the result array at `full`, the argument arrays as launched. -/
theorem run_value : θ_run defs (onTc (τ := τ) (main (F := Ideal))) ⟨m, fun _ => 0, ρ⟩ (fun r => ∀ c : Dev nD,
      r.2.mem ((c.tc : Thread nD τ).loc main_v29) = full m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Run

end
-- ==== Proof.HostSide.lean ====
/-
  The five arrays the kernel's region finds, read off the program's host lines, and the whole result over the program's
  own tables.

  Before the region the program gathers eight head rows and eight relation rows from its tables, turns each relation
  entry into a phase, rotates the heads by the phases (`rotRe`, `rotIm`), cuts the entity table into its real and
  imaginary halves, and lays the bias out as a row. Reading each of those arrays at an index turns the region's score
  (`Run.full`) into `tableScore` of the gathered rows, the entity table and the bias vector.
-/
import proofs.«144243_j71253507441336_2_alg».proof.Proof.IdealRun
import proofs.«144243_j71253507441336_2_alg».proof.Proof.Gen.ReferenceIdeal.Read
import proofs.«144243_j71253507441336_2_alg».proof.Proof.ScoreSpec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.HostSide

open Cert.KernelIdeal Cert.KernelIdeal.Gen Cert.KernelIdeal.Run Cert.ScoreSpec
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- The eight head rows the program gathers from the entity table: a negative index counts from the end. -/
def headRows (c : Dev nD) : S8x1000.Idx → EReal :=
  Host.gather gather_S14541x1000_S8x1_S8x1000_1_0_n_n_0_1_11000 (m ((c : Thread nD τ).loc main_arg2))
    (broadcastInDim S8x1 ![0] bcast_S8_S8x1_0
      (select (cmpi .slt (m ((c : Thread nD τ).loc main_arg0)) (broadcastInDim S8 ![] bcast_S_S8 (constantI S_ 32 0#32)))
        (addi (m ((c : Thread nD τ).loc main_arg0)) (broadcastInDim S8 ![] bcast_S_S8 (constantI S_ 32 14541#32)))
        (m ((c : Thread nD τ).loc main_arg0))))

/-- The eight relation rows it gathers from the relation table. -/
def relRows (c : Dev nD) : S8x500.Idx → EReal :=
  Host.gather gather_S237x500_S8x1_S8x500_1_0_n_n_0_1_1500 (m ((c : Thread nD τ).loc main_arg3))
    (broadcastInDim S8x1 ![0] bcast_S8_S8x1_0
      (select (cmpi .slt (m ((c : Thread nD τ).loc main_arg1)) (broadcastInDim S8 ![] bcast_S_S8 (constantI S_ 32 0#32)))
        (addi (m ((c : Thread nD τ).loc main_arg1)) (broadcastInDim S8 ![] bcast_S_S8 (constantI S_ 32 237#32)))
        (m ((c : Thread nD τ).loc main_arg1))))

/-! ## What the host lines leave in the region's arrays -/

set_option maxHeartbeats 2000000 in
/-- The rotated heads' real parts. -/
theorem v22_eq (c : Dev nD) : (V m c main_v22 : S8x500.Idx → EReal) = subf (mulf (extractStridedSlice S8x500 ![0, 0] (headRows m c) slices_S8x1000_S8x500_0_0) (Host.cos (Host.divf (relRows m c) (broadcastInDim S8x500 ![] bcast_S_S8x500 (constant (F := Ideal) S_ .f32 0x3C12067A#32))))) (mulf (extractStridedSlice S8x500 ![0, 500] (headRows m c) slices_S8x1000_S8x500_0_500) (Host.sin (Host.divf (relRows m c) (broadcastInDim S8x500 ![] bcast_S_S8x500 (constant (F := Ideal) S_ .f32 0x3C12067A#32))))) := by
  dsimp only [V, hostOps0]; after_results_simp <;> rfl

set_option maxHeartbeats 2000000 in
/-- The rotated heads' imaginary parts. -/
theorem v25_eq (c : Dev nD) : (V m c main_v25 : S8x500.Idx → EReal) = addf (mulf (extractStridedSlice S8x500 ![0, 0] (headRows m c) slices_S8x1000_S8x500_0_0) (Host.sin (Host.divf (relRows m c) (broadcastInDim S8x500 ![] bcast_S_S8x500 (constant (F := Ideal) S_ .f32 0x3C12067A#32))))) (mulf (extractStridedSlice S8x500 ![0, 500] (headRows m c) slices_S8x1000_S8x500_0_500) (Host.cos (Host.divf (relRows m c) (broadcastInDim S8x500 ![] bcast_S_S8x500 (constant (F := Ideal) S_ .f32 0x3C12067A#32))))) := by
  dsimp only [V, hostOps0]; after_results_simp <;> rfl

set_option maxHeartbeats 2000000 in
/-- The tails' real parts: the entity table's first 500 columns. -/
theorem v26_eq (c : Dev nD) : (V m c main_v26 : S14541x500.Idx → EReal)
    = extractStridedSlice S14541x500 ![0, 0] (m ((c : Thread nD τ).loc main_arg2)) slices_S14541x1000_S14541x500_0_0 := by
  dsimp only [V, hostOps0]; after_results_simp <;> rfl

set_option maxHeartbeats 2000000 in
/-- The tails' imaginary parts: its last 500 columns. -/
theorem v27_eq (c : Dev nD) : (V m c main_v27 : S14541x500.Idx → EReal)
    = extractStridedSlice S14541x500 ![0, 500] (m ((c : Thread nD τ).loc main_arg2)) slices_S14541x1000_S14541x500_0_500 := by
  dsimp only [V, hostOps0]; after_results_simp <;> rfl

set_option maxHeartbeats 2000000 in
/-- The bias as a [1,14541] row. -/
theorem v28_eq (c : Dev nD) : (V m c main_v28 : S1x14541.Idx → EReal)
    = shapeCast S1x14541 (m ((c : Thread nD τ).loc main_arg4)) shapeCasts_S14541_S1x14541 := by
  dsimp only [V, hostOps0]; after_results_simp <;> rfl

/-! ## The same arrays at an index -/

/-- The rotated head's real part at (b, k). -/
theorem rotRe_at (c : Dev nD) (b : Fin 8) (k : Fin 500) : V m c main_v22 (ix2 b k) = rotRe (headRows m c) (relRows m c) b k := by
  refine (congrFun (v22_eq m c) (ix2 b k)).trans ?_
  have s0 := slice2_axis1_apply 0 (headRows m c) slices_S8x1000_S8x500_0_0 b k (lo k) (Nat.zero_add _).symm
  have s5 := slice2_axis1_apply 500 (headRows m c) slices_S8x1000_S8x500_0_500 b k (hi k) rfl
  unfold rotRe phase
  show extractStridedSlice S8x500 ![0, 0] (headRows m c) slices_S8x1000_S8x500_0_0 (ix2 b k)
        * Ideal.cos (Ideal.div (relRows m c (ix2 b k)) (Ideal.ofBits .f32 0x3C12067A#32))
      - extractStridedSlice S8x500 ![0, 500] (headRows m c) slices_S8x1000_S8x500_0_500 (ix2 b k)
        * Ideal.sin (Ideal.div (relRows m c (ix2 b k)) (Ideal.ofBits .f32 0x3C12067A#32)) = _
  rw [s0, s5]

/-- The rotated head's imaginary part at (b, k). -/
theorem rotIm_at (c : Dev nD) (b : Fin 8) (k : Fin 500) : V m c main_v25 (ix2 b k) = rotIm (headRows m c) (relRows m c) b k := by
  refine (congrFun (v25_eq m c) (ix2 b k)).trans ?_
  have s0 := slice2_axis1_apply 0 (headRows m c) slices_S8x1000_S8x500_0_0 b k (lo k) (Nat.zero_add _).symm
  have s5 := slice2_axis1_apply 500 (headRows m c) slices_S8x1000_S8x500_0_500 b k (hi k) rfl
  unfold rotIm phase
  show extractStridedSlice S8x500 ![0, 0] (headRows m c) slices_S8x1000_S8x500_0_0 (ix2 b k)
        * Ideal.sin (Ideal.div (relRows m c (ix2 b k)) (Ideal.ofBits .f32 0x3C12067A#32))
      + extractStridedSlice S8x500 ![0, 500] (headRows m c) slices_S8x1000_S8x500_0_500 (ix2 b k)
        * Ideal.cos (Ideal.div (relRows m c (ix2 b k)) (Ideal.ofBits .f32 0x3C12067A#32)) = _
  rw [s0, s5]

/-- A tail's real part is the entity table's column `k`, its imaginary part column `500 + k`. -/
theorem tailRe_at (c : Dev nD) (e : Fin 14541) (k : Fin 500) :
    V m c main_v26 (ix2 e k) = m ((c : Thread nD τ).loc main_arg2) (ix2 e (lo k)) :=
  (congrFun (v26_eq m c) (ix2 e k)).trans
    (slice2_axis1_apply 0 (m ((c : Thread nD τ).loc main_arg2)) slices_S14541x1000_S14541x500_0_0 e k (lo k) (Nat.zero_add _).symm)
theorem tailIm_at (c : Dev nD) (e : Fin 14541) (k : Fin 500) :
    V m c main_v27 (ix2 e k) = m ((c : Thread nD τ).loc main_arg2) (ix2 e (hi k)) :=
  (congrFun (v27_eq m c) (ix2 e k)).trans
    (slice2_axis1_apply 500 (m ((c : Thread nD τ).loc main_arg2)) slices_S14541x1000_S14541x500_0_500 e k (hi k) rfl)

/-- The bias row at column `e` is the bias vector at `e`. -/
theorem bias_at (c : Dev nD) (e : Fin 14541) :
    V m c main_v28 (ix2 (0 : Fin 1) e) = m ((c : Thread nD τ).loc main_arg4) (ix1 e) :=
  (congrFun (v28_eq m c) (ix2 (0 : Fin 1) e)).trans (shapeCast_a_1a_apply _ _ (0 : Fin 1) e)

/-! ## The whole result over the tables -/

/-- Entry (b, e) of the result is `tableScore` of the gathered rows, the entity table and the bias vector. -/
theorem full_apply (c : Dev nD) (b : Fin 8) (e : Fin 14541) :
    full m c (ix2 b e) = tableScore (headRows m c) (relRows m c) (m ((c : Thread nD τ).loc main_arg2)) (m ((c : Thread nD τ).loc main_arg4)) b e := by
  show score (n := 14541) (V m c main_v26) (V m c main_v27) (V m c main_v22) (V m c main_v25) (V m c main_v28) b e = _
  unfold score rowScore tableScore
  refine congrArg Ideal.logistic (congrArg₂ (· + ·) (congrArg (Ideal.ofBits .f32 0x41400000#32 - ·) (Finset.sum_congr rfl fun k _ => ?_)) (bias_at m c e))
  exact congr (congr (congr (congrArg modulus (rotRe_at m c b k)) (tailRe_at m c e k)) (rotIm_at m c b k)) (tailIm_at m c e k)

end Cert.KernelIdeal.HostSide
end
-- ==== Proof.LibLogisticGate.lean ====
/-
  The logistic gate on the extended reals.

  At the exact instance a float is an extended real and the logistic function is
  `logistic s = 1 / (1 + e^(-s))`, with `logistic ⊥ = 0` and `logistic ⊤ = 1`. Whatever `s` is — a
  real number or an infinity — its value lies in the interval `[0, 1]`: it is nonnegative and it is
  never `⊤`. Multiplication by such a factor distributes over EVERY sum of extended reals, the sums
  that meet an infinity included: `σ * (a + b) = σ * a + σ * b`. So a cell that gates a sum,
  `σ * (c + t)`, and a cell that gates the two summands with the same gate and then adds,
  `σ * c + σ * t`, hold the same extended real, with no finiteness assumed of `c`, `t` or `s`.

  The module also reads the expansion `1 / (1 + exp (-s))` written with the f32 word of the number
  one (`0x3F800000`) as that same logistic function, vector by vector: a program that spells the
  gate by negate, exponential, add and divide computes `logistic` at every index.

  Nothing here mentions a particular program: the shapes and the arrays are arbitrary.
-/
import Mathlib.Data.EReal.Operations
import Idealize.ShloMosaic.PureOps.Ideal
import Idealize.ShloMosaic.Lib.IdealHost

noncomputable section

namespace LogisticGate

open Idealize.ShloMosaic

/-- The logistic of an extended real is nonnegative: `0` at `⊥`, `1` at `⊤`, and the inverse of the
    positive real `1 + e^(-r)` at a real `r`. -/
theorem logistic_nonneg (s : EReal) : 0 ≤ Ideal.logistic s := by
  induction s using EReal.rec with
  | bot => rw [Ideal.logistic_bot]
  | coe r =>
    rw [Ideal.logistic_coe]
    have h : (0 : ℝ) ≤ (1 + Real.exp (-r))⁻¹ := (inv_pos.2 (by positivity)).le
    exact_mod_cast h
  | top => rw [Ideal.logistic_top]; exact zero_le_one

/-- The logistic of an extended real is never `⊤`: its values are `0`, `1` and real numbers. -/
theorem logistic_ne_top (s : EReal) : Ideal.logistic s ≠ ⊤ := by
  induction s using EReal.rec with
  | bot => rw [Ideal.logistic_bot]; exact EReal.zero_ne_top
  | coe r => rw [Ideal.logistic_coe]; exact EReal.coe_ne_top _
  | top => rw [Ideal.logistic_top, ← EReal.coe_one]; exact EReal.coe_ne_top _

/-- A logistic gate distributes over a sum of extended reals, infinities included: the factor is
    nonnegative and not `⊤`, which is all that distributivity on the extended reals asks of it. -/
theorem logistic_mul_add (s a b : EReal) :
    Ideal.logistic s * (a + b) = Ideal.logistic s * a + Ideal.logistic s * b :=
  EReal.left_distrib_of_nonneg_of_ne_top (logistic_nonneg s) (logistic_ne_top s) a b

/-- The expansion `1 / (1 + exp (-s))`, both ones the f32 word `0x3F800000`, is the logistic of `s`:
    the word is the number one, and the quotient is the definition of the logistic function. -/
theorem one_div_one_add_exp_neg (s : EReal) :
    Ideal.div (Ideal.ofBits .f32 0x3F800000#32) (Ideal.ofBits .f32 0x3F800000#32 + Ideal.exp (-s))
      = Ideal.logistic s := by
  rw [Ideal.ofBits_one_f32]; rfl

end LogisticGate

end
-- ==== Proof.RefScore.lean ====
/-
  The reference's result, entry by entry.

  The reference computes the same score with every array laid out in full: the gathered heads and relations as
  [8,1,·] arrays, the entity table as [1,14541,·], everything broadcast to [8,14541,500], the modulus summed over the
  last axis, and the logistic spelt `1 / (1 + exp (-s))`. Read at (b, e) each broadcast and slice only moves an index,
  so the result is `tableScore` of the gathered rows, the entity table and the bias vector; the spelt-out logistic is
  the logistic function (`LogisticGate.one_div_one_add_exp_neg`), and the sum's initial word is zero.
-/
import proofs.«144243_j71253507441336_2_alg».proof.Proof.Gen.ReferenceIdeal.Read
import proofs.«144243_j71253507441336_2_alg».proof.Proof.ScoreSpec
import proofs.«144243_j71253507441336_2_alg».proof.Proof.LibLogisticGate
import Idealize.ShloMosaic.Lib.ValueIdx

set_option maxRecDepth 16384

noncomputable section

open scoped BigOperators

namespace Cert.ReferenceIdeal.RefScore

open Cert.ReferenceIdeal Cert.ReferenceIdeal.Gen Cert.ReferenceIdeal.Read Cert.ScoreSpec
open Idealize.ShloMosaic Idealize.ShloMosaic.ValueIdx

set_option maxHeartbeats 2000000 in
/-- Entry (b, e) of the reference's result. -/
theorem result_apply (x0 x1 : (⟨S8, .i32⟩ : BufTy).Contents (Elt Ideal)) (x2 : (⟨S14541x1000, .f32⟩ : BufTy).Contents (Elt Ideal))
    (x3 : (⟨S237x500, .f32⟩ : BufTy).Contents (Elt Ideal)) (x4 : (⟨S14541, .f32⟩ : BufTy).Contents (Elt Ideal)) (b : Fin 8) (e : Fin 14541) :
    val_main_v52 (F := Ideal) x0 x1 x2 x3 x4 (ix2 b e)
      = tableScore (val_main_v6 (F := Ideal) x0 x2) (val_main_v14 (F := Ideal) x1 x3) x2 x4 b e := by
  simp only [val_main_v52_apply, val_main_v51_apply, val_main_cst_6_apply, val_main_v50_apply, val_main_v49_apply, val_main_cst_5_apply, val_main_v48_apply, val_main_v47_apply, val_main_v46_apply, val_main_v45_apply, val_main_v44_apply, val_main_v43_apply, val_main_v42_apply, val_main_cst_4_apply, val_main_v41_apply, val_main_cst_3_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_cst_apply, val_main_v20_apply, val_main_v19_apply, val_main_v18_apply, val_main_v17_apply, val_main_v16_apply, val_main_v15_apply, val_main_v7_apply, Ideal.hostDivf_def, Ideal.addf_def, Ideal.subf_def, Ideal.mulf_def, Ideal.hostUnary_exp_def, Ideal.hostUnary_sqrt_def,
    Ideal.hostUnary_cos_def, Ideal.hostUnary_sin_def, Ideal.hostNegf_def, Ideal.negf_def, Ideal.ofBits_def]
  rw [LogisticGate.one_div_one_add_exp_neg]
  unfold tableScore
  refine congrArg Ideal.logistic (congrArg₂ (· + ·) (congrArg (Ideal.ofBits .f32 0x41400000#32 - ·) ?_) ?_)
  · rw [Ideal.ofBits_zero_f32, zero_add]
    refine Finset.sum_congr rfl fun k _ => ?_
    have hC : idx_main_v7 (idx_main_v16 (idx_main_v28 (idx_main_v41 (ix2 b e) k))) = ix2 b (lo k) := funext fun a => Fin.ext (by
      match a with
      | ⟨0, _⟩ => rfl
      | ⟨1, _⟩ => rfl)
    have hD : idx_main_v7 (idx_main_v17 (idx_main_v28 (idx_main_v41 (ix2 b e) k))) = ix2 b (hi k) := funext fun a => Fin.ext (by
      match a with
      | ⟨0, _⟩ => rfl
      | ⟨1, _⟩ => rfl)
    have hC' : idx_main_v7 (idx_main_v16 (idx_main_v34 (idx_main_v41 (ix2 b e) k))) = ix2 b (lo k) := funext fun a => Fin.ext (by
      match a with
      | ⟨0, _⟩ => rfl
      | ⟨1, _⟩ => rfl)
    have hD' : idx_main_v7 (idx_main_v17 (idx_main_v34 (idx_main_v41 (ix2 b e) k))) = ix2 b (hi k) := funext fun a => Fin.ext (by
      match a with
      | ⟨0, _⟩ => rfl
      | ⟨1, _⟩ => rfl)
    have hE : idx_main_v15 (idx_main_v28 (idx_main_v41 (ix2 b e) k)) = ix2 b k := funext fun a => Fin.ext (by
      match a with
      | ⟨0, _⟩ => rfl
      | ⟨1, _⟩ => rfl)
    have hE' : idx_main_v15 (idx_main_v34 (idx_main_v41 (ix2 b e) k)) = ix2 b k := funext fun a => Fin.ext (by
      match a with
      | ⟨0, _⟩ => rfl
      | ⟨1, _⟩ => rfl)
    have hA : idx_main_v18 (idx_main_v19 (idx_main_v29 (idx_main_v41 (ix2 b e) k))) = ix2 e (lo k) := funext fun a => Fin.ext (by
      match a with
      | ⟨0, _⟩ => rfl
      | ⟨1, _⟩ => rfl)
    have hB : idx_main_v18 (idx_main_v20 (idx_main_v35 (idx_main_v41 (ix2 b e) k))) = ix2 e (hi k) := funext fun a => Fin.ext (by
      match a with
      | ⟨0, _⟩ => rfl
      | ⟨1, _⟩ => rfl)
    simp only [hC, hD, hC', hD', hE, hE', hA, hB]
    rfl
  · exact congrArg x4 (funext fun a => Fin.ext (by
      match a with
      | ⟨0, _⟩ => rfl))

end Cert.ReferenceIdeal.RefScore

end
-- ==== Proof.lean ====
/-
  The claims, assembled.

  Both programs compute, for eight queries (a head entity and a relation each) against all 14541 entities, the RotatE
  score  logistic ((12 - Σ_k |head·rotation - tail|) + bias)  over 500 complex coordinates. The kernel rotates the heads
  on the host, cuts the entity table into real and imaginary halves, and scores 1024 entities per grid step (the last
  step's tile overhanging the table); the reference broadcasts everything to [8,14541,500] and spells the logistic as
  1/(1+exp(-s)). On the extended reals the two results are one function of the arguments, entry by entry: the same
  expression tree, so no law that needs finiteness is used and the precondition is never opened.

  * The word-level kernel's frame: `Cert.Kernel.Run.frame` (the output tile's contents forgotten).
  * The idealized kernel's run with its result array named (`Cert.KernelIdeal.Run.run_value`): the frame is that run with
    the result dropped; the result is `tableScore` of the gathered rows and the two tables (`HostSide.full_apply`).
  * The reference's run is the generated one; its result at an index is the same `tableScore` (`RefScore.result_apply`).
  * The ideal pass rewrote nothing, so `preserves` has nothing to state.
-/
import proofs.«144243_j71253507441336_2_alg».proof.Defs
import proofs.«144243_j71253507441336_2_alg».proof.Proof.Gen.Kernel
import proofs.«144243_j71253507441336_2_alg».proof.Proof.Gen.KernelIdeal
import proofs.«144243_j71253507441336_2_alg».proof.Proof.Gen.ReferenceIdeal
import proofs.«144243_j71253507441336_2_alg».proof.Proof.Gen.Pre_finite_inputs
import proofs.«144243_j71253507441336_2_alg».proof.Proof.WordRun
import proofs.«144243_j71253507441336_2_alg».proof.Proof.HostSide
import proofs.«144243_j71253507441336_2_alg».proof.Proof.RefScore
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs to the end and leaves its arguments as they were. -/
theorem frame_word : Cert.frame_Kernel := fun m ρ _ => Cert.Kernel.Run.frame m ρ

/-- So does the idealized kernel: its run with the result named, the result dropped. -/
theorem frame_ideal : Cert.frame_KernelIdeal := fun m ρ _ =>
  (θ_run Cert.KernelIdeal.defs _ _).mono (fun _ h c => (h c).2) (Cert.KernelIdeal.Run.run_value m ρ)

/-- And the reference: its generated run, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The rows the two programs gather from the tables are the same rows: the same gather of the same table at the same
    indices (a negative index counted from the end), spelt in each program's own names. -/
theorem heads_agree (m : (ℓ : Loc Cert.KernelIdeal.nD Cert.KernelIdeal.τ Cert.KernelIdeal.sig) → Buf (Elt Ideal) ℓ) (c : Dev Cert.KernelIdeal.nD) :
    Cert.ReferenceIdeal.Read.val_main_v6 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
      = Cert.KernelIdeal.HostSide.headRows m c := rfl
theorem rels_agree (m : (ℓ : Loc Cert.KernelIdeal.nD Cert.KernelIdeal.τ Cert.KernelIdeal.sig) → Buf (Elt Ideal) ℓ) (c : Dev Cert.KernelIdeal.nD) :
    Cert.ReferenceIdeal.Read.val_main_v14 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
      = Cert.KernelIdeal.HostSide.relRows m c := rfl

/-- From memories agreeing on the arguments both programs end with one result: entry (b, e) is, on either side, the
    score of query `b` against entity `e` over the gathered rows, the entity table and the bias vector. -/
theorem algebraic : Cert.algebraic_KernelIdeal_ReferenceIdeal := by
  intro m ρ m' ρ' _ hagree
  refine ⟨fun c => Cert.KernelIdeal.Run.full m c, Cert.KernelIdeal.Run.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2.1, (hagree c).2.2.1, (hagree c).2.2.2.1, (hagree c).2.2.2.2]
  funext i
  obtain ⟨p, q, rfl⟩ : ∃ (p : Fin 8) (q : Fin 14541), i = ix2 p q := ⟨i 0, i 1, eq_ix2 i⟩
  refine (Cert.ReferenceIdeal.RefScore.result_apply _ _ _ _ _ p q).trans ?_
  rw [heads_agree m c, rels_agree m c]
  exact (Cert.KernelIdeal.HostSide.full_apply m c p q).symm

theorem claim : Cert.Claim := ⟨Cert.Kernel.Gen.facts, Cert.KernelIdeal.Gen.facts, Cert.ReferenceIdeal.Gen.facts, Cert.Pre_finite_inputs.Gen.facts,
  frame_word, frame_ideal, frame_ref, preserves, algebraic⟩

end Cert.Proof

end
